-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg1 : IVec S8192x8192 32) (main_arg5 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_c_8 : IVec S_ 32 := constantI S_ 32 0#32
  let main_v24 : IVec S8192x8192 32 := broadcastInDim S8192x8192 ![] bcast_S_S8192x8192 main_c_8
  let main_v25 : IVec S8192x8192 1 := cmpi .eq main_arg1 main_v24
  let main_c_9 : IVec S_ 32 := constantI S_ 32 1#32
  let main_v26 : IVec S8192x8192 32 := broadcastInDim S8192x8192 ![] bcast_S_S8192x8192 main_c_9
  let main_v27 : IVec S8192x8192 1 := cmpi .eq main_arg1 main_v26
  let main_v28 : IVec S8192x8192 1 := ori main_v25 main_v27
  let main_c_10 : IVec S_ 1 := constantI S_ 1 1#1
  let main_v29 : IVec S_ 1 := (fun x v => Host.reduce IntOp.andi x v reducesTo_S8192x8192_S_d0_1 h_S_) main_v28 main_c_10
  let main_v30 : IVec S_ 1 := andi main_v23 main_v29
  main_v30

def fn {F : FTy → Type} [FloatOps F] (main_arg0 : FVec F S8192x256 .f32) (main_arg1 : IVec S8192x8192 32) (main_arg2 : FVec F S256x256 .f32) (main_arg3 : FVec F S256 .f32) (main_arg4 : FVec F S256x1 .f32) (main_arg5 : FVec F S256x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg1 main_arg5 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S8192x1 : Shape := ⟨2, ![8192, 1]⟩
abbrev S1x8192 : Shape := ⟨2, ![1, 8192]⟩
abbrev S8192x64 : Shape := ⟨2, ![8192, 64]⟩
abbrev S1024x512 : Shape := ⟨2, ![1024, 512]⟩
abbrev S1024x1 : Shape := ⟨2, ![1024, 1]⟩
abbrev S1x512 : Shape := ⟨2, ![1, 512]⟩
abbrev S1024x64 : Shape := ⟨2, ![1024, 64]⟩
abbrev S1024x256 : Shape := ⟨2, ![1024, 256]⟩
abbrev S1024 : Shape := ⟨1, ![1024]⟩
abbrev S512x256 : Shape := ⟨2, ![512, 256]⟩

abbrev nBuf : Space → Nat
  | .hbm => 16
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S256x1, .f32⟩
  | .hbm, ⟨6, _⟩ => ⟨S256x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S8192x256, .bf16⟩
  | .hbm, ⟨15, _⟩ => ⟨S8192x64, .f32⟩
  | .local _ .vmem, ⟨0, _⟩ => ⟨S1024x512, .i32⟩
  | .local _ .vmem, ⟨1, _⟩ => ⟨S1024x512, .i32⟩
  | .local _ .vmem, ⟨2, _⟩ => ⟨S1024x1, .f32⟩
  | .local _ .vmem, ⟨3, _⟩ => ⟨S1024x1, .f32⟩
  | .local _ .vmem, ⟨4, _⟩ => ⟨S1x512, .f32⟩
  | .local _ .vmem, ⟨5, _⟩ => ⟨S1x512, .f32⟩
  | .local _ .vmem, ⟨6, _⟩ => ⟨S8192x256, .bf16⟩
  | .local _ .vmem, ⟨7, _⟩ => ⟨S1024x64, .f32⟩
  | .local _ .vmem, ⟨8, _⟩ => ⟨S1024x64, .f32⟩
  | .local _ .vmem, ⟨9, _⟩ => ⟨S1024x1, .f32⟩
  | .local _ .vmem, ⟨10, _⟩ => ⟨S1024x1, .f32⟩
  | .local _ .vmem, ⟨11, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v38 : BitVec 32 := Scalar.muli arg1 c512_i32
  v38
def k0_off1 (i : grid0.Coords) : Fin 2 → Nat :=
  let arg1 : BitVec 32 := BitVec.ofNat 32 (i 1).val
  let c512_i32 : BitVec 32 := 512#32
  let v38 : BitVec 32 := Scalar.muli arg1 c512_i32
  let v39 : BitVec 32 := v38
  let v40 : Index := Scalar.indexCast v39
  let c0_19 : Index := 0#32
  ![v40.toNat, 0]
def k0_cond2 (i : grid0.Coords) : BitVec 1 :=
  let arg1 : BitVec 32 := BitVec.ofNat 32 (i 1).val
  let c15_i32 : BitVec 32 := 15#32
  let v55 : BitVec 1 := Scalar.cmpi .eq arg1 c15_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S8192x1_S1x8192 : S8192x1.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  h_S512x256 : 0 < S512x256.numel
  shapeCasts_S512x256_S512x256 : S512x256.ShapeCasts S512x256
  broadcasts_S1024x1_S1024x256 : S1024x1.Broadcasts S1024x256
  inb_S1024x256_S1024x64_0_0 : ∀ a, (![0, 0] : Fin 2 → Nat) a + S1024x64.size a ≤ S1024x256.size a
  h_S1024x64 : 0 < S1024x64.numel
  inb_S1024x256_S1024x64_0_64 : ∀ a, (![0, 64] : Fin 2 → Nat) a + S1024x64.size a ≤ S1024x256.size a
  inb_S1024x256_S1024x64_0_128 : ∀ a, (![0, 128] : Fin 2 → Nat) a + S1024x64.size a ≤ S1024x256.size a
  inb_S1024x256_S1024x64_0_192 : ∀ a, (![0, 192] : Fin 2 → Nat) a + S1024x64.size a ≤ S1024x256.size a
  broadcasts_S1024x1_S1024x64 : S1024x1.Broadcasts S1024x64
  inb_S1024x64_S1024x64_0_0 : ∀ a, (![0, 0] : Fin 2 → Nat) a + S1024x64.size a ≤ S1024x64.size a
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S1024x512_S512x256_S1024x256_1_0_0_1_n_n_wf : DotDims.WF S1024x512 S512x256 S1024x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .i32 = 32 ∨ (Rect.block (s := S8192x8192) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x256.size a
  hwx0_3 : ∀ i : grid0.Coords, EltTy.bits .bf16 = 32 ∨ (Rect.block (s := S8192x256) S8192x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S8192x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S8192x1 : Shape := ⟨2, ![8192, 1]⟩
abbrev S1x8192 : Shape := ⟨2, ![1, 8192]⟩
abbrev S_ : Shape := ⟨0, ![]⟩
abbrev S8192 : Shape := ⟨1, ![8192]⟩
abbrev S8192x4x64 : Shape := ⟨3, ![8192, 4, 64]⟩
abbrev S8192x64 : Shape := ⟨2, ![8192, 64]⟩

abbrev nBuf : Space → Nat
  | .hbm => 52
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S256x1, .f32⟩
  | .hbm, ⟨6, _⟩ => ⟨S8192x8192, .f32⟩
  | .hbm, ⟨7, _⟩ => ⟨S256x256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x1, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x256, .f32⟩
  | .hbm, ⟨49, _⟩ => ⟨S8192x4x64, .f32⟩
  | .hbm, ⟨50, _⟩ => ⟨S_, .f32⟩
  | .hbm, ⟨51, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_call1_v0 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x1_S8192x8192_0_1 : S8192x1.BroadcastsInDim S8192x8192 (![0, 1] : Fin 2 → Fin S8192x8192.rank)
  transposes_S8192x1_S1x8192_1_0 : S8192x1.Transposes [1, 0] S1x8192
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x256_S8192x4x64 : S8192x256.ShapeCasts S8192x4x64
  reducesTo_S8192x4x64_S8192x64_d1 : S8192x4x64.ReducesTo [1] S8192x64
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KerPieces.lean ====
/-
  The kernel's three carried buffers after one grid point, as the body's arithmetic applied to the point's input
  blocks and to what the point before left: the running row maximum, the running normaliser and the running
  weighted sum of an online softmax over the column blocks.
-/
import proofs.«124421_j80685255622923_2_alg».proof.Proof.Gen.KernelIdeal.Frame
import Idealize.ShloMosaic.Lib.Pipeline.Value
import Idealize.ShloMosaic.Lib.Tactic
import Idealize.ShloMosaic.Lib.Pipeline.FrameBody

noncomputable section

open Idealize.ShloMosaic Idealize.ShloMosaic.TcCoe Idealize.SL.Sem

namespace Cert.KernelIdeal.KerValue

open Cert.KernelIdeal Cert.KernelIdeal.Gen

variable {F : FTy → Type} [FloatOps F]

/-- The rows of the feature matrix that column block `i 1` meets: 512 rows from row `512 · (i 1)`. -/
def hrows (i : grid0.Coords) (x3 : Vec F S8192x256 .bf16) : Vec F S512x256 .bf16 :=
  View.ld x3 (Rect.unit (k0_off1 i) S512x256.size (k0_off1_inb i))

theorem hz : (![0, 0] : Fin 2 → Nat) = fun _ => 0 := funext fun a => by fin_cases a <;> rfl

/-! ## What one grid point leaves in the three carried buffers

The running row maximum, the running normaliser and the running weighted sum are each stored once, whole, at every
point; at the first column block of a row block they are first reset (to `-∞`, `0`, `0`) and the reset values
are what the update reads back. -/

/-- First column block: the new maximum is the block's row maximum against the reset value. -/
theorem first_max (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i) (x0 : Vec F S1024x512 .i32) (x1 : Vec F S1024x1 .f32) (x2 : Vec F S1x512 .f32) (x3 : Vec F S8192x256 .bf16) :
    sout0_A_0 c i arg2 harg2 arg3 harg3 arg4 harg4 arg5 harg5 arg6 harg6 arg7 harg7 arg8 harg8 arg9 harg9 hc0 hc1 x0 x1 x2 x3 = k0_pay3 (k0_pay9 x0 x1 x2 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x256) _ hz, View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]

/-- First column block: the new normaliser, over the reset maximum and normaliser. -/
theorem first_norm (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i) (x0 : Vec F S1024x512 .i32) (x1 : Vec F S1024x1 .f32) (x2 : Vec F S1x512 .f32) (x3 : Vec F S8192x256 .bf16) :
    sout0_A_1 c i arg2 harg2 arg3 harg3 arg4 harg4 arg5 harg5 arg6 harg6 arg7 harg7 arg8 harg8 arg9 harg9 hc0 hc1 x0 x1 x2 x3 = k0_pay1 (k0_pay12 x0 x1 x2 k0_pay5 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x256) _ hz, View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]

/-- First column block: the new weighted sum, over the reset maximum and sum. -/
theorem first_acc (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i) (x0 : Vec F S1024x512 .i32) (x1 : Vec F S1024x1 .f32) (x2 : Vec F S1x512 .f32) (x3 : Vec F S8192x256 .bf16) :
    sout0_A_2 c i arg2 harg2 arg3 harg3 arg4 harg4 arg5 harg5 arg6 harg6 arg7 harg7 arg8 harg8 arg9 harg9 hc0 hc1 x0 x1 x2 x3 = k0_pay2 (k0_pay10 x0 x1 x2 k0_pay5 k0_pay5) (k0_pay11 x0 x1 x2 k0_pay5) (hrows i x3) k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x256) hz]
  simp only [View.readCov_unit_zero (S := S1024x1) _ hz, View.readCov_unit_zero (S := S1024x256) _ hz, View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]
  rfl

/-- A later column block: the new maximum over the one carried in. -/
theorem next_max (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    sout0_B_0 c i arg2 harg2 arg3 harg3 arg4 harg4 arg5 harg5 arg6 harg6 arg7 harg7 arg8 harg8 arg9 harg9 hc0 hc1 x0 x1 x2 x3 xs0 xs1 xs2 = k0_pay3 (k0_pay9 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]

/-- A later column block: the new normaliser over the maximum and normaliser carried in. -/
theorem next_norm (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay12 x0 x1 x2 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]

/-- A later column block: the new weighted sum over the maximum and sum carried in. -/
theorem next_acc (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    sout0_B_2 c i arg2 harg2 arg3 harg3 arg4 harg4 arg5 harg5 arg6 harg6 arg7 harg7 arg8 harg8 arg9 harg9 hc0 hc1 x0 x1 x2 x3 xs0 xs1 xs2 = k0_pay2 (k0_pay10 x0 x1 x2 xs0 xs0) (k0_pay11 x0 x1 x2 xs0) (hrows i x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]
  rfl

/-- The last column block updates the three carried buffers as any later block does. -/
theorem last_max (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    sout0_C_0 c i arg2 harg2 arg3 harg3 arg4 harg4 arg5 harg5 arg6 harg6 arg7 harg7 arg8 harg8 arg9 harg9 hc0 hc1 x0 x1 x2 x3 xs0 xs1 xs2 = k0_pay3 (k0_pay9 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]

theorem last_norm (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay12 x0 x1 x2 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]

theorem last_acc (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    sout0_C_2 c i arg2 harg2 arg3 harg3 arg4 harg4 arg5 harg5 arg6 harg6 arg7 harg7 arg8 harg8 arg9 harg9 hc0 hc1 x0 x1 x2 x3 xs0 xs1 xs2 = k0_pay2 (k0_pay10 x0 x1 x2 xs0 xs0) (k0_pay11 x0 x1 x2 xs0) (hrows i x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]
  rfl

/-- … and then writes the output block: the four heads' column groups of the NEW weighted sum added, over the NEW
    normaliser. -/
theorem last_out (c : Dev nD) (i : grid0.Coords) (arg2 : Memref sig .tc .vmem S1024x512 .i32) (harg2 : arg2.IsWhole) (arg3 : Memref sig .tc .vmem S1024x1 .f32) (harg3 : arg3.IsWhole) (arg4 : Memref sig .tc .vmem S1x512 .f32) (harg4 : arg4.IsWhole) (arg5 : Memref sig .tc .vmem S8192x256 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S1024x512 .i32) (x1 : Vec F S1024x1 .f32) (x2 : Vec F S1x512 .f32) (x3 : Vec F S8192x256 .bf16) (xs0 : Vec F S1024x1 .f32) (xs1 : Vec F S1024x1 .f32) (xs2 : Vec F S1024x256 .f32) :
    out0_C_4 c i arg2 harg2 arg3 harg3 arg4 harg4 arg5 harg5 arg6 harg6 arg7 harg7 arg8 harg8 arg9 harg9 hc0 hc1 x0 x1 x2 x3 xs0 xs1 xs2
      = k0_pay4
          (fun j => k0_pay2 (k0_pay10 x0 x1 x2 xs0 xs0) (k0_pay11 x0 x1 x2 xs0) (hrows i x3) xs2
            ((Rect.unit (s := S1024x256) ![0, 0] S1024x64.size inb_S1024x256_S1024x64_0_0).toLoadRect.idx j))
          (fun j => k0_pay2 (k0_pay10 x0 x1 x2 xs0 xs0) (k0_pay11 x0 x1 x2 xs0) (hrows i x3) xs2
            ((Rect.unit (s := S1024x256) ![0, 64] S1024x64.size inb_S1024x256_S1024x64_0_64).toLoadRect.idx j))
          (fun j => k0_pay2 (k0_pay10 x0 x1 x2 xs0 xs0) (k0_pay11 x0 x1 x2 xs0) (hrows i x3) xs2
            ((Rect.unit (s := S1024x256) ![0, 128] S1024x64.size inb_S1024x256_S1024x64_0_128).toLoadRect.idx j))
          (fun j => k0_pay2 (k0_pay10 x0 x1 x2 xs0 xs0) (k0_pay11 x0 x1 x2 xs0) (hrows i x3) xs2
            ((Rect.unit (s := S1024x256) ![0, 192] S1024x64.size inb_S1024x256_S1024x64_0_192).toLoadRect.idx j))
          (fun j => k0_pay1 (k0_pay12 x0 x1 x2 xs0 xs0 xs1)
            ((Rect.unit (s := S1024x1) ![0, 0] S1024x1.size inb_S1024x1_S1024x1_0_0).toLoadRect.idx j)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S1024x512) hz, View.ld_unit_zero (S := S1024x1) hz, View.ld_unit_zero (S := S1x512) hz, View.ld_unit_zero (S := S1024x256) hz]
  simp only [View.readCov_eq_canon', View.canon_unit_zero (S := S1024x256) hz, View.canon_unit_zero (S := S1024x1) hz]
  rfl

end Cert.KernelIdeal.KerValue
end
-- ==== Proof.HostPart.lean ====
/-
  The part of the computation both programs do on the host, in the same way, before anything else: the projected
  features `H = X · Wᵀ + b` (8192 × 256) and the two logit columns `H · a` (8192 × 1).  They are named here as
  functions of the argument arrays so that the two sides of the statement can speak of the same arrays; the only
  thing ever needed of their values is that they are finite when the arguments are.
-/
import Idealize.ShloMosaic.PureOps.Ideal

noncomputable section

namespace Cert.HostPart

open Idealize.ShloMosaic

abbrev SX : Shape := ⟨2, ![8192, 256]⟩
abbrev SW : Shape := ⟨2, ![256, 256]⟩
abbrev SB : Shape := ⟨1, ![256]⟩
abbrev SB1 : Shape := ⟨2, ![1, 256]⟩
abbrev SC : Shape := ⟨2, ![256, 1]⟩
abbrev SV : Shape := ⟨2, ![8192, 1]⟩

/-- The contraction of a matrix's columns against another's rows, for the feature product. -/
abbrev dotH (wf : DotDims.WF SX SW SX [1] [0] [0] [1] [] []) : DotDims SX SW SX where
  lhsContracting := [1]
  rhsContracting := [0]
  lhsNonContracting := [0]
  rhsNonContracting := [1]
  lhsBatch := []
  rhsBatch := []
  wf := wf

/-- The same contraction, for a logit column. -/
abbrev dotV (wf : DotDims.WF SX SC SV [1] [0] [0] [1] [] []) : DotDims SX SC SV where
  lhsContracting := [1]
  rhsContracting := [0]
  lhsNonContracting := [0]
  rhsNonContracting := [1]
  lhsBatch := []
  rhsBatch := []
  wf := wf

/-- The projected features `X · Wᵀ + b`, the bias added to every row. -/
def Hin (wf : DotDims.WF SX SW SX [1] [0] [0] [1] [] []) (ht : SW.Transposes [1, 0] SW)
    (hb1 : SB.BroadcastsInDim SB1 (![1] : Fin 1 → Fin SB1.rank))
    (hb2 : SB1.BroadcastsInDim SX (![0, 1] : Fin 2 → Fin SX.rank))
    (X : FVec Ideal SX .f32) (W : FVec Ideal SW .f32) (b : FVec Ideal SB .f32) : FVec Ideal SX .f32 :=
  addf (Host.dotGeneral (dotH wf) none X (transpose SW [1, 0] W ht))
    (broadcastInDim SX ![0, 1] hb2 (broadcastInDim SB1 ![1] hb1 b))

/-- A logit column `H · a`. -/
def lin (wf : DotDims.WF SX SC SV [1] [0] [0] [1] [] []) (H : FVec Ideal SX .f32) (a : FVec Ideal SC .f32) :
    FVec Ideal SV .f32 :=
  Host.dotGeneral (dotV wf) none H a

end Cert.HostPart

end
-- ==== Proof.KerBlocks.lean ====
/-
  What the kernel's windows hand its body at a grid point, at the ideal instance.

  Before the region the host computes the projected features `H = X · Wᵀ + b`, the two logit columns `s = H · a_s`
  and `r = H · a_r`, lays `r` out as a row, and narrows `H`; narrowing is the identity on extended reals, and the row
  has the column's entries.  So the arrays the region finds are the shared arrays `Hc`, `sc`, `rc` of the argument
  arrays.  The grid is 8 row blocks by 16 column blocks; point `t` is row block `t / 16`, column block `t % 16`.
  The adjacency window's block at `t` is rows `1024 · (t / 16) + p`, columns `512 · (t % 16) + q` of the adjacency;
  the source-logit block is rows `1024 · (t / 16) + p` of `s`; the receiver-logit block is entries
  `512 · (t % 16) + q` of `r`; the feature window is all of `H`, of which the body reads rows `512 · (t % 16) + q`.
  The output window's block at `t` is rows `1024 · (t / 16) + p` of the result, written back at the last column
  block of each row block; those eight blocks cover the result.
-/
import proofs.«124421_j80685255622923_2_alg».proof.Proof.KerPieces
import proofs.«124421_j80685255622923_2_alg».proof.Proof.HostPart
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.KerValue

open Cert.KernelIdeal Cert.KernelIdeal.Gen Idealize.ShloMosaic Idealize.ShloMosaic.ValueIdx Cert.HostPart

variable (m : (ℓ : Loc nD τ sig) → Buf (Elt Ideal) ℓ)

/-- The projected features of device `c`: `X · Wᵀ + b` of its argument arrays. -/
abbrev Hc (c : Dev nD) : FVec Ideal SX .f32 :=
  Hin Facts₀.dot_S8192x256_S256x256_S8192x256_1_0_0_1_n_n_wf Facts₀.transposes_S256x256_S256x256_1_0
    Facts₀.bcast_S256_S1x256_1 Facts₀.bcast_S1x256_S8192x256_0_1
    (m ((c : Thread nD τ).loc main_arg0)) (m ((c : Thread nD τ).loc main_arg2)) (m ((c : Thread nD τ).loc main_arg3))

/-- The source logits of device `c`: the projected features against the first attention vector. -/
abbrev sc (c : Dev nD) : FVec Ideal SV .f32 :=
  lin Facts₀.dot_S8192x256_S256x1_S8192x1_1_0_0_1_n_n_wf (Hc m c) (m ((c : Thread nD τ).loc main_arg4))

/-- The receiver logits of device `c`: the projected features against the second attention vector. -/
abbrev rc (c : Dev nD) : FVec Ideal SV .f32 :=
  lin Facts₀.dot_S8192x256_S256x1_S8192x1_1_0_0_1_n_n_wf (Hc m c) (m ((c : Thread nD τ).loc main_arg5))

/-! ## The host operations before the region, read as the shared arrays -/

/-- The feature array the region finds is the projected features. -/
theorem V_H_fun (c : Dev nD) : (V m c main_v4 : S8192x256.Idx → EReal) = Hc m c := by
  dsimp only [Gen.V, Gen.hostOps0]
  after_results
  rfl

/-- The source-logit column the region finds. -/
theorem V_s_fun (c : Dev nD) : (V m c main_v5 : S8192x1.Idx → EReal) = sc m c := by
  dsimp only [Gen.V, Gen.hostOps0]
  after_results
  rfl

/-- The receiver logits the region finds: the column, laid out as a row. -/
theorem V_r_fun (c : Dev nD) : (V m c main_v7 : S1x8192.Idx → EReal)
    = shapeCast S1x8192 (rc m c) Facts₀.shapeCasts_S8192x1_S1x8192 := by
  dsimp only [Gen.V, Gen.hostOps0]
  after_results
  rfl

/-- The narrowed feature array the region finds: narrowing is the identity on extended reals. -/
theorem V_Hb_fun (c : Dev nD) : (V m c main_v8 : S8192x256.Idx → EReal) = Hc m c := by
  dsimp only [Gen.V, Gen.hostOps0]
  after_results
  rfl

theorem V_H (c : Dev nD) (i : SX.Idx) : (V m c main_v4 : S8192x256.Idx → EReal) i = Hc m c i :=
  congrFun (V_H_fun m c) i

theorem V_s (c : Dev nD) (i : SV.Idx) : (V m c main_v5 : S8192x1.Idx → EReal) i = sc m c i :=
  congrFun (V_s_fun m c) i

/-- Entry `j` of the row is entry `j` of the column: both have row-major position `j`. -/
theorem V_r (c : Dev nD) (j : Fin 8192) :
    (V m c main_v7 : S1x8192.Idx → EReal) (ix2 (0 : Fin 1) j) = rc m c (ix2 j (0 : Fin 1)) := by
  rw [V_r_fun]
  refine shapeCast_apply (rc m c) _ _ _ ?_
  rw [Shape.rowMajor_val_two, Shape.rowMajor_val_two]
  show j.val * 1 + 0 = 0 * 8192 + j.val
  omega

theorem V_Hb (c : Dev nD) (i : SX.Idx) : (V m c main_v8 : S8192x256.Idx → EReal) i = Hc m c i :=
  congrFun (V_Hb_fun m c) i

/-! ## Each input block as entries of those arrays

Grid point `t` is row block `t / 16`, column block `t % 16`.  A block's coordinate in its array is always the block
index times the block size plus the coordinate inside the block. -/

/-- The printed index maps and the column coordinate, decided once over the grid. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = 0
    ∧ win0_4.index t (0 : Fin 2) = t.val / 16 ∧ win0_4.index t (1 : Fin 2) = 0
    ∧ ((grid0.coords t) (1 : Fin 2)).val = t.val % 16 :=
  (by decide +kernel : ∀ t : Fin grid0.N, _)

theorem row_lt (t : Fin cfg0.N) (p : Fin 1024) : 1024 * (t.val / 16) + p.val < 8192 := by
  have hN : cfg0.N = 128 := N_0
  have h1 := t.isLt
  have h2 := p.isLt
  omega

theorem col_lt (t : Fin cfg0.N) (q : Fin 512) : 512 * (t.val % 16) + q.val < 8192 := by
  have h2 := q.isLt
  omega

/-- The adjacency block at `t`, at any index and the array index with the matching coordinates. -/
theorem iblk0_apply (c : Dev nD) (t : Fin cfg0.N) (x : S1024x512.Idx) (k : S8192x8192.Idx)
    (hk0 : (k 0).val = 1024 * (t.val / 16) + (x 0).val) (hk1 : (k 1).val = 512 * (t.val % 16) + (x 1).val) :
    (iblk m c 0 t : Vec Ideal S1024x512 .i32) x
      = (m ((c : Thread nD τ).loc main_arg1) : S8192x8192.Idx → BitVec 32) k := by
  obtain ⟨e0, e1, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_0.index t 0 * 1024 + 1 * (x 0).val = (k 0).val; rw [e0, hk0]; omega
  | ⟨1, _⟩ => show win0_0.index t 1 * 512 + 1 * (x 1).val = (k 1).val; rw [e1, hk1]; omega

theorem blkA (c : Dev nD) (t : Fin cfg0.N) (p : Fin 1024) (q : Fin 512) :
    (iblk m c 0 t : Vec Ideal S1024x512 .i32) (ix2 p q)
      = (m ((c : Thread nD τ).loc main_arg1) : S8192x8192.Idx → BitVec 32)
          (ix2 ⟨1024 * (t.val / 16) + p.val, row_lt t p⟩ ⟨512 * (t.val % 16) + q.val, col_lt t q⟩) :=
  iblk0_apply m c t _ _ rfl rfl

/-- The source-logit block at `t`. -/
theorem iblk1_apply (c : Dev nD) (t : Fin cfg0.N) (x : S1024x1.Idx) (k : S8192x1.Idx)
    (hk0 : (k 0).val = 1024 * (t.val / 16) + (x 0).val) (hk1 : (k 1).val = (x 1).val) :
    (iblk m c 1 t : Vec Ideal S1024x1 .f32) x = sc m c k := by
  obtain ⟨-, -, e0, e1, -⟩ := idx_facts t
  unfold iblk
  rw [View.read_apply]
  show (V m c main_v5 : S8192x1.Idx → EReal) _ = sc m c k
  rw [V_s]
  congr 1
  funext a
  apply Fin.ext
  match a with
  | ⟨0, _⟩ => show win0_1.index t 0 * 1024 + 1 * (x 0).val = (k 0).val; rw [e0, hk0]; omega
  | ⟨1, _⟩ => show win0_1.index t 1 * 1 + 1 * (x 1).val = (k 1).val; rw [e1, hk1]; omega

theorem blkS (c : Dev nD) (t : Fin cfg0.N) (p : Fin 1024) :
    (iblk m c 1 t : Vec Ideal S1024x1 .f32) (ix2 p (0 : Fin 1))
      = sc m c (ix2 ⟨1024 * (t.val / 16) + p.val, row_lt t p⟩ (0 : Fin 1)) :=
  iblk1_apply m c t _ _ rfl rfl

/-- The receiver-logit block at `t`: 512 entries of the row, which are entries of the column. -/
theorem blkR (c : Dev nD) (t : Fin cfg0.N) (q : Fin 512) :
    (iblk m c 2 t : Vec Ideal S1x512 .f32) (ix2 (0 : Fin 1) q)
      = rc m c (ix2 ⟨512 * (t.val % 16) + q.val, col_lt t q⟩ (0 : Fin 1)) := by
  obtain ⟨-, -, -, -, e0, e1, -⟩ := idx_facts t
  rw [← V_r]
  unfold iblk
  rw [View.read_apply]
  show (V m c main_v7 : S1x8192.Idx → EReal) _ = (V m c main_v7 : S1x8192.Idx → EReal) _
  congr 1
  funext a
  apply Fin.ext
  match a with
  | ⟨0, _⟩ => show win0_2.index t 0 * 1 + 1 * 0 = 0; rw [e0]
  | ⟨1, _⟩ => show win0_2.index t 1 * 512 + 1 * q.val = 512 * (t.val % 16) + q.val; rw [e1]; omega

/-- The feature window is the whole narrowed feature array at every point. -/
theorem iblk3_apply (c : Dev nD) (t : Fin cfg0.N) (x : S8192x256.Idx) :
    (iblk m c 3 t : Vec Ideal S8192x256 .bf16) x = Hc m c x := by
  obtain ⟨-, -, -, -, -, -, e0, e1, -⟩ := idx_facts t
  unfold iblk
  rw [View.read_apply]
  show (V m c main_v8 : S8192x256.Idx → EReal) _ = Hc m c x
  rw [V_Hb]
  congr 1
  funext a
  apply Fin.ext
  match a with
  | ⟨0, _⟩ => show win0_3.index t 0 * 8192 + 1 * (x 0).val = (x 0).val; rw [e0]; omega
  | ⟨1, _⟩ => show win0_3.index t 1 * 256 + 1 * (x 1).val = (x 1).val; rw [e1]; omega

theorem blkH (c : Dev nD) (t : Fin cfg0.N) (j : Fin 8192) (f : Fin 256) :
    (iblk m c 3 t : Vec Ideal S8192x256 .bf16) (ix2 j f) = Hc m c (ix2 j f) :=
  iblk3_apply m c t _

/-- The rows of the feature array that column block `t % 16` meets are rows `512 · (t % 16) + q`. -/
theorem hrows_apply (t : Fin cfg0.N) (x3 : Vec Ideal S8192x256 .bf16) (q : Fin 512) (f : Fin 256) :
    hrows (grid0.coords t) x3 (ix2 q f) = x3 (ix2 ⟨512 * (t.val % 16) + q.val, col_lt t q⟩ f) := by
  have e := (idx_facts t).2.2.2.2.2.2.2.2.2.2
  unfold hrows
  show x3 _ = x3 _
  congr 1
  funext a
  apply Fin.ext
  rw [LoadRect.idx_apply]
  simp only [Rect.off_unit, Rect.stride_unit, k0_off1_eq]
  match a with
  | ⟨0, _⟩ => show 512 * ((grid0.coords t) 1).val + 1 * q.val = 512 * (t.val % 16) + q.val; rw [e]; omega
  | ⟨1, _⟩ => show 0 + 1 * f.val = f.val; omega

/-! ## The four column groups of the weighted sum, and the normaliser's column -/

/-- The 64 columns from column `o` of the 256: entry `(p, d)` of the group is entry `(p, o + d)`. -/
theorem cols_idx (o : ℕ) (inb : ∀ a, (![0, o] : Fin 2 → Nat) a + S1024x64.size a ≤ S1024x256.size a)
    (ho : o + 64 ≤ 256) (p : Fin 1024) (d : Fin 64) :
    (Rect.unit (s := S1024x256) ![0, o] S1024x64.size inb).toLoadRect.idx (ix2 p d)
      = ix2 p ⟨o + d.val, by have := d.isLt; omega⟩ := by
  funext a
  apply Fin.ext
  rw [LoadRect.idx_apply]
  simp only [Rect.off_unit, Rect.stride_unit]
  match a with
  | ⟨0, _⟩ => show 0 + 1 * p.val = p.val; omega
  | ⟨1, _⟩ => show o + 1 * d.val = o + d.val; omega

theorem cols_idx_0 (inb) (p : Fin 1024) (d : Fin 64) :
    (Rect.unit (s := S1024x256) ![0, 0] S1024x64.size inb).toLoadRect.idx (ix2 p d)
      = ix2 p ⟨0 + d.val, by have := d.isLt; omega⟩ := cols_idx 0 inb (by omega) p d

theorem cols_idx_64 (inb) (p : Fin 1024) (d : Fin 64) :
    (Rect.unit (s := S1024x256) ![0, 64] S1024x64.size inb).toLoadRect.idx (ix2 p d)
      = ix2 p ⟨64 + d.val, by have := d.isLt; omega⟩ := cols_idx 64 inb (by omega) p d

theorem cols_idx_128 (inb) (p : Fin 1024) (d : Fin 64) :
    (Rect.unit (s := S1024x256) ![0, 128] S1024x64.size inb).toLoadRect.idx (ix2 p d)
      = ix2 p ⟨128 + d.val, by have := d.isLt; omega⟩ := cols_idx 128 inb (by omega) p d

theorem cols_idx_192 (inb) (p : Fin 1024) (d : Fin 64) :
    (Rect.unit (s := S1024x256) ![0, 192] S1024x64.size inb).toLoadRect.idx (ix2 p d)
      = ix2 p ⟨192 + d.val, by have := d.isLt; omega⟩ := cols_idx 192 inb (by omega) p d

/-- The whole one-column array through its own rectangle: entry `(p, 0)` is entry `(p, 0)`. -/
theorem col_idx (inb : ∀ a, (![0, 0] : Fin 2 → Nat) a + S1024x1.size a ≤ S1024x1.size a) (p : Fin 1024) :
    (Rect.unit (s := S1024x1) ![0, 0] S1024x1.size inb).toLoadRect.idx (ix2 p (0 : Fin 1)) = ix2 p (0 : Fin 1) := by
  funext a
  apply Fin.ext
  rw [LoadRect.idx_apply]
  simp only [Rect.off_unit, Rect.stride_unit]
  match a with
  | ⟨0, _⟩ => show 0 + 1 * p.val = p.val; omega
  | ⟨1, _⟩ => show 0 + 1 * 0 = 0; omega

/-! ## The output window -/

/-- The result block is written back at the last column block of each row block. -/
theorem flush_iff (t : Fin cfg0.N) : (cfg0.win 4).flush t = true ↔ t.val % 16 = 15 := flush0_4 t

/-- The result block at `t`, read off any result array: rows `1024 · (t / 16) + p`. -/
theorem out_read_apply (t : Fin cfg0.N) (g : S8192x64.Idx → EReal) (x : S1024x64.Idx) (k : S8192x64.Idx)
    (hk0 : (k 0).val = 1024 * (t.val / 16) + (x 0).val) (hk1 : (k 1).val = (x 1).val) :
    (((cfg0.win 4).blk t).view.read (Elt Ideal) g : S1024x64.Idx → EReal) x = g k := by
  obtain ⟨-, -, -, -, -, -, -, -, e0, e1, -⟩ := idx_facts t
  rw [View.read_apply]
  show g _ = g k
  congr 1
  funext a
  apply Fin.ext
  match a with
  | ⟨0, _⟩ => show win0_4.index t 0 * 1024 + 1 * (x 0).val = (k 0).val; rw [e0, hk0]; omega
  | ⟨1, _⟩ => show win0_4.index t 1 * 64 + 1 * (x 1).val = (k 1).val; rw [e1, hk1]; omega

theorem out_read (t : Fin cfg0.N) (g : S8192x64.Idx → EReal) (p : Fin 1024) (d : Fin 64) :
    (((cfg0.win 4).blk t).view.read (Elt Ideal) g : S1024x64.Idx → EReal) (ix2 p d)
      = g (ix2 ⟨1024 * (t.val / 16) + p.val, row_lt t p⟩ d) :=
  out_read_apply t g _ _ rfl rfl

/-- The result window's blocks tile the result: a write-back writes the whole staging block. -/
theorem out_cut (t : Fin cfg0.N) (v : Vec Ideal S1024x64 .f32) :
    ((cfg0.win 4).cut (grid0.coords t) v : S1024x64.Idx → EReal) = v := rfl

/-- An index of the result is in the block at `t` exactly when its row is one of the block's 1024. -/
theorem mem_out_blk (t : Fin cfg0.N) (i : S8192x64.Idx) :
    i ∈ ((cfg0.win 4).blk t).view.set
      ↔ ∀ a : Fin 2, win0_4.index t a * S1024x64.size a ≤ (i a).val
          ∧ (i a).val < win0_4.index t a * S1024x64.size a + S1024x64.size a := by
  show i ∈ ((View.whole main_v9).slice (win0_4.rect t)).set ↔ _
  rw [View.set_slice_whole, Rect.mem_set_unit]
  exact Iff.rfl

/-- The last column block of the row block that holds row `i 0`. -/
def lastPt (i : S8192x64.Idx) : Fin cfg0.N :=
  ⟨16 * ((i 0).val / 1024) + 15, by
    rw [show cfg0.N = 128 from N_0]
    have h := idx2_lt0 i
    omega⟩

theorem lastPt_val (i : S8192x64.Idx) : (lastPt i).val = 16 * ((i 0).val / 1024) + 15 := rfl

/-- Every index of the result is in the block some write-back writes: the last column block of its row block. -/
theorem out_cover (i : S8192x64.Idx) :
    ∃ t : Fin cfg0.N, (cfg0.win 4).flush t = true ∧ i ∈ ((cfg0.win 4).blk t).view.set := by
  have hi0 : (i 0).val < 8192 := idx2_lt0 i
  have hi1 : (i 1).val < 64 := idx2_lt1 i
  refine ⟨lastPt i, (flush0_4 _).mpr (by rw [lastPt_val]; omega), ?_⟩
  rw [mem_out_blk]
  obtain ⟨-, -, -, -, -, -, -, -, e0, e1, -⟩ := idx_facts (lastPt i)
  rw [lastPt_val] at e0
  intro a
  match a with
  | ⟨0, _⟩ =>
    show win0_4.index (lastPt i) 0 * 1024 ≤ (i 0).val ∧ (i 0).val < win0_4.index (lastPt i) 0 * 1024 + 1024
    rw [e0]; omega
  | ⟨1, _⟩ =>
    show win0_4.index (lastPt i) 1 * 64 ≤ (i 1).val ∧ (i 1).val < win0_4.index (lastPt i) 1 * 64 + 64
    rw [e1]; omega

end Cert.KernelIdeal.KerValue

end
-- ==== Proof.Attn.lean ====
/-
  The mathematics of the statement, with no program in sight.

  One graph-attention layer over 8192 nodes.  From the projected features `H` (8192 × 256), the per-node
  source and receiver logits `s`, `r` (8192 × 1 each) and the 0/1 adjacency `A` (8192 × 8192), row `i` of the
  result is the softmax-weighted average of the rows of `H`, the weights `exp (x i j)` taken over ALL columns
  `j`, where the score `x i j` is `leaky (s i + r j)` on an edge and the finite fill `ν` off it; the four
  heads (column blocks of width 64) are then added.  A softmax does not change when one number is subtracted
  from every score of a row, so the row maximum the programs subtract does not appear here.

  Every array entry is an extended real; the formula is stated on the real parts (`EReal.toReal`), which is
  what the programs compute whenever the entries are finite.
-/
import Idealize.ShloMosaic.PureOps.Ideal
import Idealize.ShloMosaic.Lib.ValueIdx

noncomputable section

namespace Cert.Attn

open Idealize.ShloMosaic Idealize.ShloMosaic.ValueIdx

/-- The negative slope of the leaky rectifier: the real number the f32 literal `0.2` denotes. -/
def α : ℝ := (Ideal.ofBits .f32 0x3E4CCCCD#32 : EReal).toReal

/-- The fill of a non-edge: the real number the f32 literal `-9e15` denotes. -/
def ν : ℝ := (Ideal.ofBits .f32 0xD9FFCB9E#32 : EReal).toReal

/-- The leaky rectifier. -/
def leaky (x : ℝ) : ℝ := if 0 ≤ x then x else α * x

/-- The masked score: the rectified pre-activation on an edge (`a = 1`), the fill elsewhere. -/
def mscore (a : BitVec 32) (x : ℝ) : ℝ := if a = 1#32 then leaky x else ν

/-- Column `d` of head `h` among the 256 feature columns. -/
def headCol (h : Fin 4) (d : Fin 64) : Fin 256 := ⟨64 * h.val + d.val, by omega⟩

/-- One output entry from one row of scores: the four heads' softmax-weighted sums over a common normaliser. -/
def agg (x : Fin 8192 → ℝ) (H : Fin 8192 → Fin 256 → ℝ) (d : Fin 64) : ℝ :=
  (∑ h : Fin 4, ∑ j : Fin 8192, Real.exp (x j) * H j (headCol h d)) / ∑ j : Fin 8192, Real.exp (x j)

/-- The scores of row `i`, from the adjacency and the two logit columns. -/
def scores (A : (⟨2, ![8192, 8192]⟩ : Shape).Idx → BitVec 32) (s r : (⟨2, ![8192, 1]⟩ : Shape).Idx → EReal)
    (i j : Fin 8192) : ℝ :=
  mscore (A (ix2 i j)) ((s (ix2 i (0 : Fin 1))).toReal + (r (ix2 j (0 : Fin 1))).toReal)

/-- The real part of the feature matrix. -/
def feat (H : (⟨2, ![8192, 256]⟩ : Shape).Idx → EReal) (j : Fin 8192) (f : Fin 256) : ℝ := (H (ix2 j f)).toReal

/-- The result at row `i`, column `d`. -/
def out (A : (⟨2, ![8192, 8192]⟩ : Shape).Idx → BitVec 32) (H : (⟨2, ![8192, 256]⟩ : Shape).Idx → EReal)
    (s r : (⟨2, ![8192, 1]⟩ : Shape).Idx → EReal) (i : Fin 8192) (d : Fin 64) : EReal :=
  ((agg (scores A s r i) (feat H) d : ℝ) : EReal)

/-- The whole result array. -/
def G (A : (⟨2, ![8192, 8192]⟩ : Shape).Idx → BitVec 32) (H : (⟨2, ![8192, 256]⟩ : Shape).Idx → EReal)
    (s r : (⟨2, ![8192, 1]⟩ : Shape).Idx → EReal) : (⟨2, ![8192, 64]⟩ : Shape).Idx → EReal :=
  fun o => out A H s r ⟨(o 0).val, idx2_lt0 o⟩ ⟨(o 1).val, idx2_lt1 o⟩

theorem G_ix2 (A : (⟨2, ![8192, 8192]⟩ : Shape).Idx → BitVec 32) (H : (⟨2, ![8192, 256]⟩ : Shape).Idx → EReal)
    (s r : (⟨2, ![8192, 1]⟩ : Shape).Idx → EReal) (i : Fin 8192) (d : Fin 64) :
    G A H s r (ix2 i d) = out A H s r i d := rfl

end Cert.Attn

end
-- ==== Proof.RealOps.lean ====
/-
  The operations of the extended-real instance on finite values are the operations of the reals.

  Three literals as the extended reals their patterns denote; finite sums, the exponential, the quotient,
  the two order comparisons and the running maximum on real arguments; the two integers a 0/1 entry
  converts to.
-/
import proofs.«124421_j80685255622923_2_alg».proof.Proof.Attn
import Idealize.ShloMosaic.PureOps.Ideal
import Idealize.ShloMosaic.PureOps.Ideal.Laws

noncomputable section

namespace Cert.Attn

open Idealize.ShloMosaic

/-! ### The literals -/

/-- The pattern of `0.2` denotes the dyadic rational `13421773 · 2⁻²⁶`. -/
theorem alpha_val : Ideal.ofBits .f32 0x3E4CCCCD#32 = (((13421773 : ℝ) * (2 : ℝ) ^ (-26 : ℤ) : ℝ) : EReal) := by
  simp [Ideal.ofBits, Ideal.ieee, -EReal.coe_mul]

/-- The pattern of `-9e15` denotes the integer `-(16763806 · 2²⁹)`. -/
theorem nu_val : Ideal.ofBits .f32 0xD9FFCB9E#32 = ((-((16763806 : ℝ) * (2 : ℝ) ^ (29 : ℤ)) : ℝ) : EReal) := by
  simp [Ideal.ofBits, Ideal.ieee, -EReal.coe_mul]

/-- The slope literal denotes the real `α`: its pattern is a finite value. -/
theorem alpha_coe : Ideal.ofBits .f32 0x3E4CCCCD#32 = ((α : ℝ) : EReal) := by
  unfold α; rw [alpha_val, EReal.toReal_coe]

/-- The fill literal denotes the real `ν`: its pattern is a finite value. -/
theorem nu_coe : Ideal.ofBits .f32 0xD9FFCB9E#32 = ((ν : ℝ) : EReal) := by
  unfold ν; rw [nu_val, EReal.toReal_coe]

/-- The pattern with sign bit set, all-ones exponent and zero fraction denotes `-∞`. -/
theorem neg_inf : Ideal.ofBits .f32 0xFF800000#32 = (⊥ : EReal) := by
  simp [Ideal.ofBits, Ideal.ieee]

/-! ### Sums, exponential, quotient, comparisons -/

/-- A finite sum of reals, summed among the extended reals, is the real sum. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a s ha ih => rw [Finset.sum_insert ha, Finset.sum_insert ha, ih, EReal.coe_add]

/-- The exponential of a real. -/
theorem exp_coe (a : ℝ) : Ideal.exp (a : EReal) = ((Real.exp a : ℝ) : EReal) := rfl

/-- The exponential of `-∞` is `0`. -/
theorem exp_bot : Ideal.exp (⊥ : EReal) = 0 := rfl

/-- The quotient of two reals, the divisor nonzero. -/
theorem div_coe (a b : ℝ) (hb : b ≠ 0) : Ideal.div (a : EReal) (b : EReal) = ((a / b : ℝ) : EReal) := by
  rw [Ideal.div_coe hb, ← EReal.coe_mul, mul_one_div]

/-- `a ≥ b` on reals. -/
theorem cmp_oge_coe (a b : ℝ) : Ideal.cmp .oge (a : EReal) (b : EReal) = if b ≤ a then 1#1 else 0#1 := by
  simp only [Ideal.cmp, EReal.coe_le_coe_iff]
  by_cases h : b ≤ a <;> simp [h]

/-- `a > b` on reals. -/
theorem cmp_ogt_coe (a b : ℝ) : Ideal.cmp .ogt (a : EReal) (b : EReal) = if b < a then 1#1 else 0#1 := by
  simp only [Ideal.cmp, EReal.coe_lt_coe_iff]
  by_cases h : b < a <;> simp [h]

/-! ### The running maximum -/

/-- The maximum of two reals, taken among the extended reals, is their real maximum. -/
theorem coe_max (a b : ℝ) : max (a : EReal) (b : EReal) = ((max a b : ℝ) : EReal) :=
  (EReal.coe_strictMono.monotone.map_max).symm

/-- The maximum, started at `-∞`, of finitely many reals is `-∞` or a real. -/
theorem fold_max_coe_aux {ι : Type*} [DecidableEq ι] (f : ι → ℝ) (t : Finset ι) :
    t.fold max (⊥ : EReal) (fun k => ((f k : ℝ) : EReal)) = ⊥ ∨
      ∃ c : ℝ, t.fold max (⊥ : EReal) (fun k => ((f k : ℝ) : EReal)) = (c : EReal) := by
  induction t using Finset.induction_on with
  | empty => left; simp
  | insert a s ha ih =>
    right
    rw [Finset.fold_insert ha]
    rcases ih with h | ⟨c, h⟩
    · exact ⟨f a, by rw [h, max_bot_right]⟩
    · exact ⟨max (f a) c, by rw [h, coe_max]⟩

/-- Over a nonempty index set it is a real. -/
theorem fold_max_coe_of_nonempty {ι : Type*} [DecidableEq ι] (f : ι → ℝ) (t : Finset ι) (ht : t.Nonempty) :
    ∃ c : ℝ, t.fold max (⊥ : EReal) (fun k => ((f k : ℝ) : EReal)) = (c : EReal) := by
  obtain ⟨a, ha⟩ := ht
  rw [← Finset.insert_erase ha, Finset.fold_insert (Finset.notMem_erase a t)]
  rcases fold_max_coe_aux f (t.erase a) with h | ⟨c, h⟩
  · exact ⟨f a, by rw [h, max_bot_right]⟩
  · exact ⟨max (f a) c, by rw [h, coe_max]⟩

/-- The maximum, started at `-∞`, of a nonempty row of reals is a real. -/
theorem fold_max_coe {n : ℕ} (hn : 0 < n) (f : Fin n → ℝ) :
    ∃ c : ℝ, (Finset.univ : Finset (Fin n)).fold max (⊥ : EReal) (fun k => ((f k : ℝ) : EReal)) = (c : EReal) :=
  fold_max_coe_of_nonempty f Finset.univ ⟨⟨0, hn⟩, Finset.mem_univ _⟩

/-- The same maximum taken once more against a real is a real. -/
theorem max_coe_fold {n : ℕ} (hn : 0 < n) (f : Fin n → ℝ) (c0 : ℝ) :
    ∃ c : ℝ, max (c0 : EReal)
      ((Finset.univ : Finset (Fin n)).fold max (⊥ : EReal) (fun k => ((f k : ℝ) : EReal))) = (c : EReal) := by
  obtain ⟨c, hc⟩ := fold_max_coe hn f
  exact ⟨max c0 c, by rw [hc, coe_max]⟩

/-! ### The two integers of a 0/1 entry -/

/-- The integer `0` converts to `0`. -/
theorem sitofp_zero : FloatOps.sitofp (F := Ideal) .f32 (0#32 : BitVec 32) = (0 : EReal) := by
  show (((0#32 : BitVec 32).toInt : ℝ) : EReal) = 0
  simp

/-- The integer `1` converts to `1`. -/
theorem sitofp_one : FloatOps.sitofp (F := Ideal) .f32 (1#32 : BitVec 32) = (1 : EReal) := by
  show (((1#32 : BitVec 32).toInt : ℝ) : EReal) = 1
  have h : (1#32 : BitVec 32).toInt = 1 := by decide
  rw [h]; simp

/-! ### The exponential read at an index -/

/-- The elementwise exponential of an array of extended reals, read at an index. -/
theorem exp_apply {s : Shape} {φ : FTy} (x : FVec Ideal s φ) (i : s.Idx) : exp x i = Ideal.exp (x i) := rfl

/-- The host's elementwise exponential is the same function, read at an index. -/
theorem hostExp_apply {s : Shape} {φ : FTy} (x : FVec Ideal s φ) (i : s.Idx) : Host.exp x i = Ideal.exp (x i) := rfl

/-- The host's exponential of a real. -/
theorem hostExp_coe (a : ℝ) :
    FloatOps.hostUnary (F := Ideal) (φ := .f32) .exp (a : EReal) = ((Real.exp a : ℝ) : EReal) := rfl

/-- The host's exponential of `-∞` is `0`. -/
theorem hostExp_bot : FloatOps.hostUnary (F := Ideal) (φ := .f32) .exp (⊥ : EReal) = 0 := rfl

end Cert.Attn

end
-- ==== Proof.KerArith.lean ====
/-
  The kernel's arithmetic read at an index, at the extended reals.

  Each payload of the kernel — the masked score, the running row maximum, the decay of the old maximum, the
  weights, the normaliser, the accumulator update, the final quotient and the three resets — is read at one
  index as the extended-real expression it denotes there.  Layout operations are read through first: a column
  or a row broadcast reads its operand at the coordinate it keeps, the keep-dimensions cast of a vector of row
  values reads the value of the row, a lane reduction reads the fold over the row, and the matrix product reads
  the sum over the one contracted axis.
-/
import proofs.«124421_j80685255622923_2_alg».proof.Proof.Gen.KernelIdeal.Skeleton
import proofs.«124421_j80685255622923_2_alg».proof.Proof.RealOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerArith

open Cert.KernelIdeal Cert.KernelIdeal.Gen Idealize.ShloMosaic Idealize.ShloMosaic.ValueIdx Cert.Attn

/-! ### Layout operations at an index -/

/-- A column broadcast `[m,1] → [m,n]` reads the column at the row. -/
theorem broadcastTo_col {α : Type} {m n : Nat} (x : (⟨2, ![m, 1]⟩ : Shape).Idx → α)
    (h : (⟨2, ![m, 1]⟩ : Shape).Broadcasts ⟨2, ![m, n]⟩) (p : Fin m) (q : Fin n) :
    broadcastTo ⟨2, ![m, n]⟩ x h (ix2 p q) = x (ix2 p (0 : Fin 1)) := by
  refine broadcastTo_apply x h (ix2 p q) (ix2 p (0 : Fin 1)) ?_
  intro a
  match a with
  | ⟨0, _⟩ =>
    show p.val = if m = 1 then 0 else p.val
    split
    · have := p.isLt; omega
    · rfl
  | ⟨1, _⟩ => rfl

/-- A row broadcast `[1,n] → [m,n]` reads the row at the column. -/
theorem broadcastTo_row {α : Type} {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 (0 : Fin 1) q) := by
  refine broadcastTo_apply x h (ix2 p q) (ix2 (0 : Fin 1) q) ?_
  intro a
  match a with
  | ⟨0, _⟩ => rfl
  | ⟨1, _⟩ =>
    show q.val = if n = 1 then 0 else q.val
    split
    · have := q.isLt; omega
    · rfl

/-- The keep-dimensions cast `[m] → [m,1]` reads the vector at the row. -/
theorem shapeCast_keepdims {α : Type} {m : Nat} (x : (⟨1, ![m]⟩ : Shape).Idx → α)
    (h : (⟨1, ![m]⟩ : Shape).ShapeCasts ⟨2, ![m, 1]⟩) (p : Fin m) :
    shapeCast ⟨2, ![m, 1]⟩ x h (ix2 p (0 : Fin 1)) = x (ix1 p) := by
  refine shapeCast_apply x h (ix2 p (0 : Fin 1)) (ix1 p) ?_
  rw [Shape.rowMajor_val_two, Shape.rowMajor_val_one]
  show p.val = p.val * 1 + 0
  omega

/-- Over the rows of a `[1024,512]` array, the index a lane reduction inserts is the pair (row, lane). -/
theorem lift_row (h : S1024x512.Reduces [1] S1024) (p : Fin 1024) (q : Fin 512) :
    h.lift (ix1 p) q = ix2 p q := by
  funext c
  match c with
  | ⟨0, _⟩ => rfl
  | ⟨1, _⟩ => rfl

/-- Equal second summands give equal sums. -/
theorem add_eq_of_eq (a : EReal) {b c : EReal} (h : b = c) : a + b = a + c := congrArg (a + ·) h

/-! ### The resets and the identity casts -/

theorem pay1_id (v : FVec Ideal S1024x1 .f32) : k0_pay1 v = v := shapeCast_self _ _

theorem pay3_id (v : FVec Ideal S1024x1 .f32) : k0_pay3 v = v := shapeCast_self _ _

/-- The running maximum restarts at `-∞`. -/
theorem reset_max (p : Fin 1024) : (k0_pay5 (F := Ideal)) (ix2 p (0 : Fin 1)) = ⊥ := by
  unfold k0_pay5
  rw [shapeCast_self]
  exact neg_inf

/-- The normaliser restarts at `0`. -/
theorem reset_norm (p : Fin 1024) : (k0_pay6 (F := Ideal)) (ix2 p (0 : Fin 1)) = 0 := by
  unfold k0_pay6
  rw [shapeCast_self]
  exact Ideal.ofBits_zero_f32

/-- The accumulator restarts at `0`. -/
theorem reset_acc (p : Fin 1024) (f : Fin 256) : (k0_pay7 (F := Ideal)) (ix2 p f) = 0 := by
  unfold k0_pay7
  rw [shapeCast_self]
  exact Ideal.ofBits_zero_f32

/-! ### The normaliser -/

/-- The new normaliser: the old one scaled by the decay, plus the row sum of the weights. -/
theorem norm_apply (x0 : Vec Ideal S1024x512 .i32) (x1 : Vec Ideal S1024x1 .f32) (x2 : Vec Ideal S1x512 .f32)
    (v22 v24 v30 : Vec Ideal S1024x1 .f32) (p : Fin 1024) :
    k0_pay12 x0 x1 x2 v22 v24 v30 (ix2 p (0 : Fin 1))
      = k0_pay10 x0 x1 x2 v22 v24 (ix2 p (0 : Fin 1)) * v30 (ix2 p (0 : Fin 1))
        + ∑ q : Fin 512, k0_pay11 x0 x1 x2 v22 (ix2 p q) := by
  unfold k0_pay12
  rw [addf_apply, mulf_apply, shapeCast_keepdims]
  refine add_eq_of_eq _ ?_
  refine (Ideal.multiReduction_add_single (k0_pay11 x0 x1 x2 v22) 0x00000000#32 reduces_S1024x512_S1024 (.inl rfl) rfl
    (ix1 p)).trans ?_
  exact Finset.sum_congr rfl fun q _ => congrArg _ (lift_row _ p q)

/-! ### The accumulator update and the final quotient -/

/-- The new accumulator: the old one scaled by the decay, plus the weights times the feature block. -/
theorem acc_apply (v26 : FVec Ideal S1024x1 .f32) (v29 : FVec Ideal S1024x512 .f32) (v41 : Vec Ideal S512x256 .bf16)
    (v43 : Vec Ideal S1024x256 .f32) (p : Fin 1024) (f : Fin 256) :
    k0_pay2 v26 v29 v41 v43 (ix2 p f)
      = v26 (ix2 p (0 : Fin 1)) * v43 (ix2 p f) + ∑ q : Fin 512, v29 (ix2 p q) * v41 (ix2 q f) := by
  unfold k0_pay2
  rw [shapeCast_self, shapeCast_self, addf_apply, mulf_apply, broadcastTo_col]
  refine add_eq_of_eq _ ?_
  refine (Ideal.matmul_constant_zero_apply (φ₁ := .bf16) (φ₂ := .bf16) dot_S1024x512_S512x256_S1024x256_1_0_0_1_n_n none
    (truncf .bf16 v29 bitsLt_bf16_f32) v41 (ix2 p f)).trans ?_
  rw [← Equiv.sum_comp (contrEquiv1 dot_S1024x512_S512x256_S1024x256_1_0_0_1_n_n 512 rfl rfl).symm]
  refine Finset.sum_congr rfl fun q _ => ?_
  have hk := contrEquiv1_symm_val dot_S1024x512_S512x256_S1024x256_1_0_0_1_n_n 512 rfl rfl q
  refine congrArg₂ (· * ·) ?_ ?_
  · rw [truncf_apply]
    refine congrArg v29 (funext fun a => Fin.ext ?_)
    match a with
    | ⟨0, _⟩ => rfl
    | ⟨1, _⟩ =>
      exact (DotDims.lhsIdx_val_of_single (d := dot_S1024x512_S512x256_S1024x256_1_0_0_1_n_n) (cl := (1 : Fin 2)) rfl _ _).trans hk
  · refine congrArg v41 (funext fun a => Fin.ext ?_)
    match a with
    | ⟨0, _⟩ =>
      exact (DotDims.rhsIdx_val_of_single (d := dot_S1024x512_S512x256_S1024x256_1_0_0_1_n_n) (cr := (0 : Fin 2)) rfl _ _).trans hk
    | ⟨1, _⟩ => rfl

/-- The result: the four heads' accumulators added, divided by the normaliser of the row. -/
theorem out_apply (v58 v59 v61 v63 : Vec Ideal S1024x64 .f32) (v65 : Vec Ideal S1024x1 .f32) (p : Fin 1024) (d : Fin 64) :
    k0_pay4 v58 v59 v61 v63 v65 (ix2 p d)
      = Ideal.div (((v58 (ix2 p d) + v59 (ix2 p d)) + v61 (ix2 p d)) + v63 (ix2 p d)) (v65 (ix2 p (0 : Fin 1))) := by
  unfold k0_pay4
  rw [divf_apply, addf_apply, addf_apply, addf_apply, broadcastTo_col]

/-! ### The masked score -/

/-- An integer comparison of two arrays reads through at an index. -/
theorem cmpi_apply {s : Shape} {w : Nat} (pr : CmpIPredicate) (a b : IVec s w) (i : s.Idx) :
    cmpi pr a b i = IntOp.cmpi pr (a i) (b i) := rfl

/-- The score of one (row, lane) pair: the rectified sum of the two logits on an edge, the fill off it. -/
theorem score_apply (x0 : Vec Ideal S1024x512 .i32) (x1 : Vec Ideal S1024x1 .f32) (x2 : Vec Ideal S1x512 .f32)
    (p : Fin 1024) (q : Fin 512) (sv rv : ℝ)
    (h1 : x1 (ix2 p (0 : Fin 1)) = ((sv : ℝ) : EReal)) (h2 : x2 (ix2 (0 : Fin 1) q) = ((rv : ℝ) : EReal))
    (h0 : x0 (ix2 p q) = 0#32 ∨ x0 (ix2 p q) = 1#32) :
    k0_pay8 x0 x1 x2 (ix2 p q) = ((mscore (x0 (ix2 p q)) (sv + rv) : ℝ) : EReal) := by
  have hsum : x1 (ix2 p (0 : Fin 1)) + x2 (ix2 (0 : Fin 1) q) = ((sv + rv : ℝ) : EReal) := by
    rw [h1, h2, EReal.coe_add]
  have hz : (Scalar.ofBits (F := Ideal) .f32 0x00000000#32 : EReal) = ((0 : ℝ) : EReal) := Ideal.ofBits_zero_f32
  have ha : (Scalar.ofBits (F := Ideal) .f32 0x3E4CCCCD#32 : EReal) = ((α : ℝ) : EReal) := alpha_coe
  have hn : (Scalar.ofBits (F := Ideal) .f32 0xD9FFCB9E#32 : EReal) = ((ν : ℝ) : EReal) := nu_coe
  have hl : Scalar.select (if (0 : ℝ) ≤ sv + rv then 1#1 else 0#1) ((sv + rv : ℝ) : EReal) ((α * (sv + rv) : ℝ) : EReal)
      = ((leaky (sv + rv) : ℝ) : EReal) := by
    unfold leaky
    by_cases hc : (0 : ℝ) ≤ sv + rv
    · rw [if_pos hc, if_pos hc, select_one]
    · rw [if_neg hc, if_neg hc, select_zero]
  unfold k0_pay8
  rw [shapeCast_self, shapeCast_self]
  simp only [select_apply, cmpf_apply, cmpi_apply, mulf_apply, addf_apply, broadcast_apply, broadcastTo_col,
    broadcastTo_row]
  rw [hsum, hz, ha, hn, Ideal.cmpf_def, cmp_oge_coe, ← EReal.coe_mul, hl]
  rcases h0 with h | h
  · have hc : IntOp.cmpi .sgt (0#32 : BitVec 32) 0#32 = 0#1 := by decide
    rw [h, hc, select_zero]
    unfold mscore
    rw [if_neg (by decide)]
  · have hc : IntOp.cmpi .sgt (1#32 : BitVec 32) 0#32 = 1#1 := by decide
    rw [h, hc, select_one]
    unfold mscore
    rw [if_pos rfl]

/-! ### The decay of the old maximum and the weights -/

/-- The decay factor where the old maximum is a real: `exp (old − new)`. -/
theorem decay_real (x0 : Vec Ideal S1024x512 .i32) (x1 : Vec Ideal S1024x1 .f32) (x2 : Vec Ideal S1x512 .f32)
    (v22 v24 : Vec Ideal S1024x1 .f32) (p : Fin 1024) (c c' : ℝ)
    (hm : k0_pay9 x0 x1 x2 v22 (ix2 p (0 : Fin 1)) = ((c' : ℝ) : EReal))
    (h : v24 (ix2 p (0 : Fin 1)) = ((c : ℝ) : EReal)) :
    k0_pay10 x0 x1 x2 v22 v24 (ix2 p (0 : Fin 1)) = ((Real.exp (c - c') : ℝ) : EReal) := by
  unfold k0_pay10
  rw [exp_apply, subf_apply, hm, h, ← EReal.coe_sub, exp_coe]

/-- The decay factor where the old maximum is still `-∞`: `exp (-∞) = 0`. -/
theorem decay_bot (x0 : Vec Ideal S1024x512 .i32) (x1 : Vec Ideal S1024x1 .f32) (x2 : Vec Ideal S1x512 .f32)
    (v22 v24 : Vec Ideal S1024x1 .f32) (p : Fin 1024) (c' : ℝ)
    (hm : k0_pay9 x0 x1 x2 v22 (ix2 p (0 : Fin 1)) = ((c' : ℝ) : EReal))
    (h : v24 (ix2 p (0 : Fin 1)) = ⊥) :
    k0_pay10 x0 x1 x2 v22 v24 (ix2 p (0 : Fin 1)) = 0 := by
  unfold k0_pay10
  rw [exp_apply, subf_apply, hm, h, EReal.bot_sub, exp_bot]

/-- A weight: `exp (score − new maximum)`. -/
theorem weight_real (x0 : Vec Ideal S1024x512 .i32) (x1 : Vec Ideal S1024x1 .f32) (x2 : Vec Ideal S1x512 .f32)
    (v22 : Vec Ideal S1024x1 .f32) (p : Fin 1024) (q : Fin 512) (xq c' : ℝ)
    (hb : k0_pay8 x0 x1 x2 (ix2 p q) = ((xq : ℝ) : EReal))
    (hm : k0_pay9 x0 x1 x2 v22 (ix2 p (0 : Fin 1)) = ((c' : ℝ) : EReal)) :
    k0_pay11 x0 x1 x2 v22 (ix2 p q) = ((Real.exp (xq - c') : ℝ) : EReal) := by
  unfold k0_pay11
  rw [exp_apply, subf_apply, broadcastTo_col, hb, hm, ← EReal.coe_sub, exp_coe]

/-! ### The running row maximum -/

/-- The lane maximum of a row of real scores, from `-∞`, is the fold of `max` over the row. -/
theorem rowfold_apply (x0 : Vec Ideal S1024x512 .i32) (x1 : Vec Ideal S1024x1 .f32) (x2 : Vec Ideal S1x512 .f32)
    (p : Fin 1024) (xb : Fin 512 → ℝ)
    (hb : ∀ q : Fin 512, k0_pay8 x0 x1 x2 (ix2 p q) = ((xb q : ℝ) : EReal)) :
    multiReduction .maximumf [1] S1024 (k0_pay8 x0 x1 x2) 0xFF800000#32 reduces_S1024x512_S1024 (.inl rfl) rfl (ix1 p)
      = (Finset.univ : Finset (Fin 512)).fold max (⊥ : EReal) (fun q => ((xb q : ℝ) : EReal)) := by
  refine (Ideal.multiReduction_maximumf_single (k0_pay8 x0 x1 x2) 0xFF800000#32 reduces_S1024x512_S1024 (.inl rfl) rfl
    (ix1 p)).trans ?_
  have e2 : (k0_pay8 x0 x1 x2 ∘ reduces_S1024x512_S1024.lift (ix1 p)) = fun q : Fin 512 => ((xb q : ℝ) : EReal) :=
    funext fun q => (congrArg (k0_pay8 x0 x1 x2) (lift_row _ p q)).trans (hb q)
  rw [e2]
  exact congrArg (fun a : EReal => (Finset.univ : Finset (Fin 512)).fold max a (fun q => ((xb q : ℝ) : EReal))) neg_inf

/-- The new running maximum is a real as soon as the row's scores are. -/
theorem rowmax_real (x0 : Vec Ideal S1024x512 .i32) (x1 : Vec Ideal S1024x1 .f32) (x2 : Vec Ideal S1x512 .f32)
    (v22 : Vec Ideal S1024x1 .f32) (p : Fin 1024) (xb : Fin 512 → ℝ)
    (hb : ∀ q : Fin 512, k0_pay8 x0 x1 x2 (ix2 p q) = ((xb q : ℝ) : EReal))
    (hv : v22 (ix2 p (0 : Fin 1)) = ⊥ ∨ ∃ c : ℝ, v22 (ix2 p (0 : Fin 1)) = ((c : ℝ) : EReal)) :
    ∃ c' : ℝ, k0_pay9 x0 x1 x2 v22 (ix2 p (0 : Fin 1)) = ((c' : ℝ) : EReal) := by
  have hf := rowfold_apply x0 x1 x2 p xb hb
  unfold k0_pay9
  rw [maximumf_apply, shapeCast_keepdims]
  rcases hv with hv | ⟨c, hv⟩
  · obtain ⟨c', hc'⟩ := fold_max_coe (n := 512) (by norm_num) xb
    refine ⟨c', ?_⟩
    rw [hv, max_bot_left]
    exact hf.trans hc'
  · obtain ⟨c', hc'⟩ := max_coe_fold (n := 512) (by norm_num) xb c
    refine ⟨c', ?_⟩
    rw [hv]
    exact (congrArg (max (c : EReal)) hf).trans hc'

end Cert.KernelIdeal.KerArith

end
-- ==== Proof.Online.lean ====
/-
  The online softmax, on the reals.  A row's scores `x 0, x 1, …` are met 512 at a time.  After `n` columns the
  kernel holds a shift `c`, the normaliser `∑_{j<n} exp (x j - c)` and, per feature, the weighted sum
  `∑_{j<n} exp (x j - c) · h j`.  Meeting the next columns under a new shift `c'` rescales both by
  `exp (c - c')` and adds the new columns' terms: the results are the same sums over `n + k` columns at shift `c'`.
  Nothing here needs the shifts to be maxima.
-/
import Mathlib.Analysis.SpecialFunctions.Exp
import Mathlib.Algebra.BigOperators.Intervals

noncomputable section

namespace Cert.Attn.Online

open Finset

/-- The normaliser of the first `n` columns at shift `c`. -/
def wsum (x : ℕ → ℝ) (c : ℝ) (n : ℕ) : ℝ := ∑ j ∈ range n, Real.exp (x j - c)

/-- The weighted sum of the first `n` columns at shift `c`. -/
def hsum (x h : ℕ → ℝ) (c : ℝ) (n : ℕ) : ℝ := ∑ j ∈ range n, Real.exp (x j - c) * h j

theorem wsum_zero (x : ℕ → ℝ) (c : ℝ) : wsum x c 0 = 0 := by simp [wsum]

theorem hsum_zero (x h : ℕ → ℝ) (c : ℝ) : hsum x h c 0 = 0 := by simp [hsum]

/-- A normaliser over at least one column is positive. -/
theorem wsum_pos (x : ℕ → ℝ) (c : ℝ) {n : ℕ} (hn : 0 < n) : 0 < wsum x c n :=
  Finset.sum_pos (fun j _ => Real.exp_pos _) (Finset.nonempty_range_iff.mpr (Nat.pos_iff_ne_zero.mp hn))

/-- Rescaling the normaliser to a new shift and adding the next `k` columns. -/
theorem wsum_step (x : ℕ → ℝ) (c c' : ℝ) (n k : ℕ) :
    Real.exp (c - c') * wsum x c n + ∑ q ∈ range k, Real.exp (x (n + q) - c') = wsum x c' (n + k) := by
  unfold wsum
  rw [sum_range_add, mul_sum]
  congr 1
  refine sum_congr rfl fun j _ => ?_
  rw [← Real.exp_add]
  congr 1
  ring

/-- Rescaling the weighted sum to a new shift and adding the next `k` columns. -/
theorem hsum_step (x h : ℕ → ℝ) (c c' : ℝ) (n k : ℕ) :
    Real.exp (c - c') * hsum x h c n + ∑ q ∈ range k, Real.exp (x (n + q) - c') * h (n + q) = hsum x h c' (n + k) := by
  unfold hsum
  rw [sum_range_add, mul_sum]
  congr 1
  refine sum_congr rfl fun j _ => ?_
  rw [← mul_assoc, ← Real.exp_add]
  congr 2
  ring

/-- From nothing: whatever the factor, the first `k` columns' terms are the sums over `k` columns. -/
theorem wsum_first (x : ℕ → ℝ) (c' : ℝ) (k : ℕ) (e : ℝ) :
    e * 0 + ∑ q ∈ range k, Real.exp (x (0 + q) - c') = wsum x c' k := by
  unfold wsum
  rw [mul_zero, zero_add]
  refine sum_congr rfl fun j _ => ?_
  rw [Nat.zero_add]

theorem hsum_first (x h : ℕ → ℝ) (c' : ℝ) (k : ℕ) (e : ℝ) :
    e * 0 + ∑ q ∈ range k, Real.exp (x (0 + q) - c') * h (0 + q) = hsum x h c' k := by
  unfold hsum
  rw [mul_zero, zero_add]
  refine sum_congr rfl fun j _ => ?_
  rw [Nat.zero_add]

end Cert.Attn.Online

end
-- ==== Proof.RealAgg.lean ====
/-
  A softmax does not see a common shift of its scores, and a quotient of sums is the sum of the quotients.

  With `e = exp c > 0`, `exp (x j - c) = exp (x j) / e`; the factor `1 / e` leaves the numerator and the
  normaliser alike and cancels in their quotient.  Dividing every weight by the normaliser before the
  weighted sum, or the whole sum after it, gives the same number.
-/
import proofs.«124421_j80685255622923_2_alg».proof.Proof.Attn

noncomputable section

namespace Cert.Attn

/-- The normaliser of a shifted row of scores is positive. -/
theorem sum_exp_pos (x : Fin 8192 → ℝ) (c : ℝ) : 0 < ∑ j : Fin 8192, Real.exp (x j - c) :=
  Finset.sum_pos (fun j _ => Real.exp_pos _) ⟨⟨0, by omega⟩, Finset.mem_univ _⟩

/-- A common nonzero divisor cancels in a quotient. -/
theorem div_div_cancel_common (N D e : ℝ) (he : e ≠ 0) : N / e / (D / e) = N / D := by
  by_cases hD : D = 0
  · subst hD; simp
  · field_simp

/-- The weights shifted by `c`, the whole weighted sum divided by the shifted normaliser. -/
theorem agg_of_ker (x : Fin 8192 → ℝ) (H : Fin 8192 → Fin 256 → ℝ) (d : Fin 64) (c : ℝ) :
    (∑ h : Fin 4, ∑ j : Fin 8192, Real.exp (x j - c) * H j (headCol h d)) / ∑ j : Fin 8192, Real.exp (x j - c)
      = agg x H d := by
  have he : Real.exp c ≠ 0 := (Real.exp_pos c).ne'
  unfold agg
  simp only [Real.exp_sub, div_mul_eq_mul_div, ← Finset.sum_div]
  exact div_div_cancel_common _ _ _ he

/-- The weights shifted by `c`, each divided by the shifted normaliser before the weighted sum. -/
theorem agg_of_ref (x : Fin 8192 → ℝ) (H : Fin 8192 → Fin 256 → ℝ) (d : Fin 64) (c : ℝ) :
    ∑ h : Fin 4, ∑ j : Fin 8192,
        (Real.exp (x j - c) / ∑ j' : Fin 8192, Real.exp (x j' - c)) * H j (headCol h d)
      = agg x H d := by
  rw [← agg_of_ker x H d c]
  simp only [div_mul_eq_mul_div, ← Finset.sum_div]

end Cert.Attn

end
-- ==== Proof.KerRow.lean ====
/-
  One row of the online softmax through one grid point, from the extended reals to the reals.

  Fix a row `i` of the adjacency and a column block `J` (512 columns from `512·J`).  If the three carried values of
  the row — the shift, the normaliser, the weighted sums — are, before the point, the real sums over the first
  `512·J` columns (or the reset values `-∞, 0, 0` when `J = 0`), then after the point they are the real sums over
  the first `512·J + 512` columns at a new real shift.  Finiteness of the logits and features and the 0/1 adjacency
  are what make every intermediate a real number.
-/
import proofs.«124421_j80685255622923_2_alg».proof.Proof.KerArith
import proofs.«124421_j80685255622923_2_alg».proof.Proof.Online
import proofs.«124421_j80685255622923_2_alg».proof.Proof.RealAgg

noncomputable section

namespace Cert.KernelIdeal.KerRow

open Cert.KernelIdeal Cert.KernelIdeal.Gen Idealize.ShloMosaic Idealize.ShloMosaic.ValueIdx
open Cert.Attn Cert.Attn.Online Cert.KernelIdeal.KerArith

variable (A : (⟨2, ![8192, 8192]⟩ : Shape).Idx → BitVec 32) (H : (⟨2, ![8192, 256]⟩ : Shape).Idx → EReal)
  (s r : (⟨2, ![8192, 1]⟩ : Shape).Idx → EReal)

/-- The scores of row `i` with the columns counted by natural numbers (zero beyond the matrix). -/
def xN (i j : ℕ) : ℝ := if h : i < 8192 ∧ j < 8192 then scores A s r ⟨i, h.1⟩ ⟨j, h.2⟩ else 0

/-- Feature `f` of node `j`, the nodes counted by natural numbers (zero beyond the matrix). -/
def hN (f : Fin 256) (j : ℕ) : ℝ := if h : j < 8192 then feat H ⟨j, h⟩ f else 0

theorem row_step
    (hA : ∀ i, A i = 0#32 ∨ A i = 1#32) (hs : ∀ i, s i ≠ ⊤ ∧ s i ≠ ⊥) (hr : ∀ i, r i ≠ ⊤ ∧ r i ≠ ⊥)
    (hH : ∀ i, H i ≠ ⊤ ∧ H i ≠ ⊥)
    (x0 : Vec Ideal S1024x512 .i32) (x1 : Vec Ideal S1024x1 .f32) (x2 : Vec Ideal S1x512 .f32)
    (v41 : Vec Ideal S512x256 .bf16) (xs0 xs1 : Vec Ideal S1024x1 .f32) (xs2 : Vec Ideal S1024x256 .f32)
    (p : Fin 1024) (i J : ℕ) (hi : i < 8192) (hJ : J < 16)
    (hx0 : ∀ q : Fin 512, x0 (ix2 p q) = A (ix2 (⟨i, hi⟩ : Fin 8192) (⟨512 * J + q.val, by omega⟩ : Fin 8192)))
    (hx1 : x1 (ix2 p (0 : Fin 1)) = s (ix2 (⟨i, hi⟩ : Fin 8192) (0 : Fin 1)))
    (hx2 : ∀ q : Fin 512, x2 (ix2 (0 : Fin 1) q) = r (ix2 (⟨512 * J + q.val, by omega⟩ : Fin 8192) (0 : Fin 1)))
    (hx3 : ∀ (q : Fin 512) (f : Fin 256), v41 (ix2 q f) = H (ix2 (⟨512 * J + q.val, by omega⟩ : Fin 8192) f))
    (hold : (J = 0 ∧ xs0 (ix2 p (0 : Fin 1)) = ⊥ ∧ xs1 (ix2 p (0 : Fin 1)) = 0 ∧ ∀ f : Fin 256, xs2 (ix2 p f) = 0)
      ∨ ∃ cr : ℝ, xs0 (ix2 p (0 : Fin 1)) = ((cr : ℝ) : EReal)
          ∧ xs1 (ix2 p (0 : Fin 1)) = ((wsum (xN A s r i) cr (512 * J) : ℝ) : EReal)
          ∧ ∀ f : Fin 256, xs2 (ix2 p f) = ((hsum (xN A s r i) (hN H f) cr (512 * J) : ℝ) : EReal)) :
    ∃ cr' : ℝ, k0_pay9 x0 x1 x2 xs0 (ix2 p (0 : Fin 1)) = ((cr' : ℝ) : EReal)
      ∧ k0_pay12 x0 x1 x2 xs0 xs0 xs1 (ix2 p (0 : Fin 1)) = ((wsum (xN A s r i) cr' (512 * J + 512) : ℝ) : EReal)
      ∧ ∀ f : Fin 256, k0_pay2 (k0_pay10 x0 x1 x2 xs0 xs0) (k0_pay11 x0 x1 x2 xs0) v41 xs2 (ix2 p f)
          = ((hsum (xN A s r i) (hN H f) cr' (512 * J + 512) : ℝ) : EReal) := by
  -- the block's scores are the row's scores at columns 512·J + q
  have hsv : x1 (ix2 p (0 : Fin 1)) = (((s (ix2 (⟨i, hi⟩ : Fin 8192) (0 : Fin 1))).toReal : ℝ) : EReal) := by
    rw [hx1]; exact (EReal.coe_toReal (hs _).1 (hs _).2).symm
  have hrv : ∀ q : Fin 512, x2 (ix2 (0 : Fin 1) q)
      = (((r (ix2 (⟨512 * J + q.val, by omega⟩ : Fin 8192) (0 : Fin 1))).toReal : ℝ) : EReal) := fun q => by
    rw [hx2]; exact (EReal.coe_toReal (hr _).1 (hr _).2).symm
  have hb : ∀ q : Fin 512, k0_pay8 x0 x1 x2 (ix2 p q) = ((xN A s r i (512 * J + q.val) : ℝ) : EReal) := fun q => by
    rw [score_apply x0 x1 x2 p q _ _ hsv (hrv q) (by rw [hx0]; exact hA _)]
    refine congrArg (fun z : ℝ => (z : EReal)) ?_
    unfold xN
    rw [dif_pos ⟨hi, by omega⟩, hx0]
    rfl
  have hfeat : ∀ (q : Fin 512) (f : Fin 256), v41 (ix2 q f) = ((hN H f (512 * J + q.val) : ℝ) : EReal) := fun q f => by
    rw [hx3]
    unfold hN
    rw [dif_pos (by omega)]
    exact (EReal.coe_toReal (hH _).1 (hH _).2).symm
  -- the new shift is a real number
  obtain ⟨c', hc'⟩ := rowmax_real x0 x1 x2 xs0 p (fun q => xN A s r i (512 * J + q.val)) hb
    (by rcases hold with ⟨_, h, _⟩ | ⟨cr, h, _⟩
        · exact Or.inl h
        · exact Or.inr ⟨cr, h⟩)
  have hw : ∀ q : Fin 512, k0_pay11 x0 x1 x2 xs0 (ix2 p q)
      = ((Real.exp (xN A s r i (512 * J + q.val) - c') : ℝ) : EReal) :=
    fun q => weight_real x0 x1 x2 xs0 p q _ c' (hb q) hc'
  have hsumw : ∑ q : Fin 512, k0_pay11 x0 x1 x2 xs0 (ix2 p q)
      = ((∑ q ∈ Finset.range 512, Real.exp (xN A s r i (512 * J + q) - c') : ℝ) : EReal) := by
    rw [Finset.sum_congr rfl (fun q _ => hw q), Cert.Attn.coe_sum, Finset.sum_range]
  have hsumh : ∀ f : Fin 256, ∑ q : Fin 512, k0_pay11 x0 x1 x2 xs0 (ix2 p q) * v41 (ix2 q f)
      = ((∑ q ∈ Finset.range 512, Real.exp (xN A s r i (512 * J + q) - c') * hN H f (512 * J + q) : ℝ) : EReal) := fun f => by
    rw [Finset.sum_congr rfl (fun q _ => show k0_pay11 x0 x1 x2 xs0 (ix2 p q) * v41 (ix2 q f)
        = ((Real.exp (xN A s r i (512 * J + q.val) - c') * hN H f (512 * J + q.val) : ℝ) : EReal) from by
          rw [hw q, hfeat q f, EReal.coe_mul]), Cert.Attn.coe_sum, Finset.sum_range]
  refine ⟨c', hc', ?_, fun f => ?_⟩
  · rw [norm_apply, hsumw]
    rcases hold with ⟨hJ0, hm, hl, ha⟩ | ⟨cr, hm, hl, ha⟩
    · rw [decay_bot x0 x1 x2 xs0 xs0 p c' hc' hm, hl, zero_mul, zero_add]
      subst hJ0
      refine congrArg (fun z : ℝ => (z : EReal)) ?_
      simp only [Nat.mul_zero, Nat.zero_add, wsum]
    · rw [decay_real x0 x1 x2 xs0 xs0 p cr c' hc' hm, hl, ← EReal.coe_mul, ← EReal.coe_add]
      exact congrArg (fun z : ℝ => (z : EReal)) (wsum_step _ cr c' (512 * J) 512)
  · rw [acc_apply, hsumh f]
    rcases hold with ⟨hJ0, hm, hl, ha⟩ | ⟨cr, hm, hl, ha⟩
    · rw [decay_bot x0 x1 x2 xs0 xs0 p c' hc' hm, ha f, zero_mul, zero_add]
      subst hJ0
      refine congrArg (fun z : ℝ => (z : EReal)) ?_
      simp only [Nat.mul_zero, Nat.zero_add, hsum]
    · rw [decay_real x0 x1 x2 xs0 xs0 p cr c' hc' hm, ha f, ← EReal.coe_mul, ← EReal.coe_add]
      exact congrArg (fun z : ℝ => (z : EReal)) (hsum_step _ _ cr c' (512 * J) 512)

/-- At the last column block the four heads' weighted sums over the normaliser are the layer's output entry: the
    sums over all 8192 columns, columns counted by natural numbers, are the sums over the column index type, and a
    common shift cancels. -/
theorem agg_of_sums (i : ℕ) (hi : i < 8192) (d : Fin 64) (cr : ℝ) :
    (((hsum (xN A s r i) (hN H (headCol 0 d)) cr 8192 + hsum (xN A s r i) (hN H (headCol 1 d)) cr 8192)
        + hsum (xN A s r i) (hN H (headCol 2 d)) cr 8192) + hsum (xN A s r i) (hN H (headCol 3 d)) cr 8192)
      / wsum (xN A s r i) cr 8192 = agg (scores A s r ⟨i, hi⟩) (feat H) d := by
  have hx : ∀ j : Fin 8192, xN A s r i j.val = scores A s r ⟨i, hi⟩ j := fun j => by
    unfold xN; rw [dif_pos ⟨hi, j.isLt⟩]
  have hh : ∀ (f : Fin 256) (j : Fin 8192), hN H f j.val = feat H j f := fun f j => by
    unfold hN; rw [dif_pos j.isLt]
  rw [← agg_of_ker (scores A s r ⟨i, hi⟩) (feat H) d cr]
  unfold hsum wsum
  simp only [Finset.sum_range, hx, hh, Fin.sum_univ_four]

end Cert.KernelIdeal.KerRow

end
-- ==== Proof.KerInv.lean ====
/-
  The kernel's carried buffers after every grid point, by induction on the point.

  The grid walks the eight row blocks one after the other and, inside a row block, the sixteen column blocks.  At
  the first column block the three carried buffers are reset and then updated; at every later one they are updated
  from what the point before left.  Row by row, the update is the online-softmax step on the reals, so after point
  `n` every row holds a real shift and, at that shift, the normaliser and the weighted sums of the row's first
  `512 · (n % 16 + 1)` columns.
-/
import proofs.«124421_j80685255622923_2_alg».proof.Proof.KerBlocks
import proofs.«124421_j80685255622923_2_alg».proof.Proof.KerRow
import proofs.«124421_j80685255622923_2_alg».proof.Proof.Gen.KernelIdeal.Value

set_option maxRecDepth 16384

noncomputable section

namespace Cert.KernelIdeal.KerValue

open Cert.KernelIdeal Cert.KernelIdeal.Gen Idealize.ShloMosaic Idealize.ShloMosaic.ValueIdx Cert.HostPart
open Cert.Attn Cert.Attn.Online Cert.KernelIdeal.KerArith Cert.KernelIdeal.KerRow

variable (m : (ℓ : Loc nD τ sig) → Buf (Elt Ideal) ℓ)

/-- The adjacency array of device `c`. -/
abbrev adj (c : Dev nD) : (⟨2, ![8192, 8192]⟩ : Shape).Idx → BitVec 32 := m (c.tc.loc main_arg1)

/-- Row `p` of the carried buffers after grid point `n` (row block `n / 16`, column blocks `0 … n % 16` met): a real
    shift, and at that shift the normaliser and the weighted sums of the row's first `512 · (n % 16 + 1)` columns. -/
def RowOK (c : Dev nD) (M L : Vec Ideal S1024x1 .f32) (Acc : Vec Ideal S1024x256 .f32) (n : ℕ) (p : Fin 1024) : Prop :=
  ∃ cr : ℝ, M (ix2 p (0 : Fin 1)) = ((cr : ℝ) : EReal)
    ∧ L (ix2 p (0 : Fin 1))
        = ((wsum (xN (adj m c) (sc m c) (rc m c) (1024 * (n / 16) + p.val)) cr (512 * (n % 16) + 512) : ℝ) : EReal)
    ∧ ∀ f : Fin 256, Acc (ix2 p f)
        = ((hsum (xN (adj m c) (sc m c) (rc m c) (1024 * (n / 16) + p.val)) (hN (Hc m c) f) cr (512 * (n % 16) + 512) : ℝ) : EReal)

section
variable (c : Dev nD) (hA : ∀ i, adj m c i = 0#32 ∨ adj m c i = 1#32) (hs : ∀ i, sc m c i ≠ ⊤ ∧ sc m c i ≠ ⊥)
  (hr : ∀ i, rc m c i ≠ ⊤ ∧ rc m c i ≠ ⊥) (hH : ∀ i, Hc m c i ≠ ⊤ ∧ Hc m c i ≠ ⊥)
include hA hs hr hH

/-- One point's update of row `p`, from whatever the carried buffers held that satisfies the row's condition. -/
theorem point_step (t : Fin cfg0.N) (p : Fin 1024) (xs0 xs1 : Vec Ideal S1024x1 .f32) (xs2 : Vec Ideal S1024x256 .f32)
    (hold : (t.val % 16 = 0 ∧ xs0 (ix2 p (0 : Fin 1)) = ⊥ ∧ xs1 (ix2 p (0 : Fin 1)) = 0 ∧ ∀ f : Fin 256, xs2 (ix2 p f) = 0)
      ∨ ∃ cr : ℝ, xs0 (ix2 p (0 : Fin 1)) = ((cr : ℝ) : EReal)
          ∧ xs1 (ix2 p (0 : Fin 1))
              = ((wsum (xN (adj m c) (sc m c) (rc m c) (1024 * (t.val / 16) + p.val)) cr (512 * (t.val % 16)) : ℝ) : EReal)
          ∧ ∀ f : Fin 256, xs2 (ix2 p f)
              = ((hsum (xN (adj m c) (sc m c) (rc m c) (1024 * (t.val / 16) + p.val)) (hN (Hc m c) f) cr (512 * (t.val % 16)) : ℝ) : EReal)) :
    RowOK m c (k0_pay3 (k0_pay9 (iblk m c 0 t) (iblk m c 1 t) (iblk m c 2 t) xs0))
      (k0_pay1 (k0_pay12 (iblk m c 0 t) (iblk m c 1 t) (iblk m c 2 t) xs0 xs0 xs1))
      (k0_pay2 (k0_pay10 (iblk m c 0 t) (iblk m c 1 t) (iblk m c 2 t) xs0 xs0) (k0_pay11 (iblk m c 0 t) (iblk m c 1 t) (iblk m c 2 t) xs0)
        (hrows (grid0.coords t) (iblk m c 3 t)) xs2) t.val p := by
  have hN128 : cfg0.N = 128 := N_0
  have ht := t.isLt
  unfold RowOK
  rw [pay3_id, pay1_id]
  exact row_step (adj m c) (Hc m c) (sc m c) (rc m c) hA hs hr hH (iblk m c 0 t) (iblk m c 1 t) (iblk m c 2 t)
    (hrows (grid0.coords t) (iblk m c 3 t)) xs0 xs1 xs2 p (1024 * (t.val / 16) + p.val) (t.val % 16) (by omega) (by omega)
    (fun q => blkA m c t p q) (blkS m c t p) (fun q => blkR m c t q)
    (fun q f => (hrows_apply t (iblk m c 3 t) q f).trans (blkH m c t _ f)) hold

/-- After every grid point, every row of the carried buffers is the real online-softmax state of its columns met so far. -/
theorem inv : ∀ (n : ℕ) (h : n < cfg0.N) (p : Fin 1024),
    RowOK m c (outsAt0 m c n h).2.1 (outsAt0 m c n h).2.2.1 (outsAt0 m c n h).2.2.2 n p := by
  have hN128 : cfg0.N = 128 := N_0
  intro n
  induction n with
  | zero =>
    intro h p
    have h0 : (⟨0, h⟩ : Fin cfg0.N).val % 16 = 0 := rfl
    have h1 : ¬(⟨0, h⟩ : Fin cfg0.N).val % 16 = 15 := by dsimp only; omega
    rw [outsAt0_A m c ⟨0, h⟩ h0 h1]
    dsimp only
    rw [first_max c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr h0) (fun hq => h1 ((hcond0_1 ⟨0, h⟩).mp hq)) (iblk m c 0 ⟨0, h⟩) (iblk m c 1 ⟨0, h⟩) (iblk m c 2 ⟨0, h⟩) (iblk m c 3 ⟨0, h⟩), first_norm c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr h0) (fun hq => h1 ((hcond0_1 ⟨0, h⟩).mp hq)) (iblk m c 0 ⟨0, h⟩) (iblk m c 1 ⟨0, h⟩) (iblk m c 2 ⟨0, h⟩) (iblk m c 3 ⟨0, h⟩), first_acc c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) scM0_2 (Memref.isWhole_whole _) ((hcond0_0 ⟨0, h⟩).mpr h0) (fun hq => h1 ((hcond0_1 ⟨0, h⟩).mp hq)) (iblk m c 0 ⟨0, h⟩) (iblk m c 1 ⟨0, h⟩) (iblk m c 2 ⟨0, h⟩) (iblk m c 3 ⟨0, h⟩)]
    exact point_step m c hA hs hr hH ⟨0, h⟩ p (k0_pay5 (F := Ideal)) (k0_pay6 (F := Ideal)) (k0_pay7 (F := Ideal)) (Or.inl ⟨rfl, reset_max p, reset_norm p, reset_acc p⟩)
  | succ n ih =>
    intro h p
    by_cases h0 : (⟨n + 1, h⟩ : Fin cfg0.N).val % 16 = 0
    · have h1 : ¬(⟨n + 1, h⟩ : Fin cfg0.N).val % 16 = 15 := by omega
      rw [outsAt0_A m c ⟨n + 1, h⟩ h0 h1]
      dsimp only
      rw [first_max c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) ((hcond0_0 ⟨n + 1, h⟩).mpr h0) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩), first_norm c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) ((hcond0_0 ⟨n + 1, h⟩).mpr h0) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩), first_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) ((hcond0_0 ⟨n + 1, h⟩).mpr h0) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩)]
      exact point_step m c hA hs hr hH ⟨n + 1, h⟩ p (k0_pay5 (F := Ideal)) (k0_pay6 (F := Ideal)) (k0_pay7 (F := Ideal)) (Or.inl ⟨h0, reset_max p, reset_norm p, reset_acc p⟩)
    · obtain ⟨cr, hm, hl, ha⟩ := ih (Nat.lt_of_succ_lt h) p
      have e1 : (n + 1) / 16 = n / 16 := by dsimp only at h0; omega
      have e2 : 512 * ((n + 1) % 16) = 512 * (n % 16) + 512 := by dsimp only at h0; omega
      have hold : ∃ cr : ℝ, (outsAt0 m c n (Nat.lt_of_succ_lt h)).2.1 (ix2 p (0 : Fin 1)) = ((cr : ℝ) : EReal)
          ∧ (outsAt0 m c n (Nat.lt_of_succ_lt h)).2.2.1 (ix2 p (0 : Fin 1))
              = ((wsum (xN (adj m c) (sc m c) (rc m c) (1024 * ((⟨n + 1, h⟩ : Fin cfg0.N).val / 16) + p.val)) cr (512 * ((⟨n + 1, h⟩ : Fin cfg0.N).val % 16)) : ℝ) : EReal)
          ∧ ∀ f : Fin 256, (outsAt0 m c n (Nat.lt_of_succ_lt h)).2.2.2 (ix2 p f)
              = ((hsum (xN (adj m c) (sc m c) (rc m c) (1024 * ((⟨n + 1, h⟩ : Fin cfg0.N).val / 16) + p.val)) (hN (Hc m c) f) cr (512 * ((⟨n + 1, h⟩ : Fin cfg0.N).val % 16)) : ℝ) : EReal) := by
        dsimp only
        rw [e1, e2]
        exact ⟨cr, hm, hl, ha⟩
      by_cases h1 : (⟨n + 1, h⟩ : Fin cfg0.N).val % 16 = 15
      · rw [outsAt0_C m c ⟨n + 1, h⟩ h0 h1]
        dsimp only
        rw [last_max c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) _ _ _, last_norm c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) _ _ _, last_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) _ _ _]
        exact point_step m c hA hs hr hH ⟨n + 1, h⟩ p _ _ _ (Or.inr hold)
      · rw [outsAt0_B m c ⟨n + 1, h⟩ h0 h1]
        dsimp only
        rw [next_max c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) _ _ _, next_norm c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) _ _ _, next_acc c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) scM0_2 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) _ _ _]
        exact point_step m c hA hs hr hH ⟨n + 1, h⟩ p _ _ _ (Or.inr hold)

end

end Cert.KernelIdeal.KerValue

end
-- ==== Proof.KerFinal.lean ====
/-
  The kernel's result array.

  Only the last column block of a row block writes the output: the four heads' column groups of the finished
  weighted sums, added, over the finished normaliser.  By the invariant of the carried buffers these are the sums
  over all 8192 columns, so the written block is the layer's output for the block's rows; the eight written blocks
  tile the result array.
-/
import proofs.«124421_j80685255622923_2_alg».proof.Proof.KerInv

set_option maxRecDepth 16384

noncomputable section

namespace Cert.KernelIdeal.KerValue

open Cert.KernelIdeal Cert.KernelIdeal.Gen Idealize.ShloMosaic Idealize.ShloMosaic.ValueIdx Cert.HostPart
open Cert.Attn Cert.Attn.Online Cert.KernelIdeal.KerArith Cert.KernelIdeal.KerRow

variable (m : (ℓ : Loc nD τ sig) → Buf (Elt Ideal) ℓ)

/-- Column `d` of the group of 64 columns that starts at column `o`. -/
theorem head_idx (o : ℕ) (inb : ∀ a, (![0, o] : Fin 2 → ℕ) a + S1024x64.size a ≤ S1024x256.size a) (p : Fin 1024) (d : Fin 64)
    (ho : o + 64 ≤ 256) :
    (Rect.unit (s := S1024x256) ![0, o] S1024x64.size inb).toLoadRect.idx (ix2 p d)
      = ix2 p (⟨o + d.val, by have := d.isLt; omega⟩ : Fin 256) := by
  funext a
  apply Fin.ext
  match a with
  | ⟨0, _⟩ => show 0 + 1 * p.val = p.val; omega
  | ⟨1, _⟩ => show o + 1 * d.val = o + d.val; omega

theorem whole_col_idx (p : Fin 1024) :
    (Rect.unit (s := S1024x1) ![0, 0] S1024x1.size inb_S1024x1_S1024x1_0_0).toLoadRect.idx (ix2 p (0 : Fin 1))
      = ix2 p (0 : Fin 1) := by
  funext a
  apply Fin.ext
  match a with
  | ⟨0, _⟩ => show 0 + 1 * p.val = p.val; omega
  | ⟨1, _⟩ => rfl

section
variable (c : Dev nD) (hA : ∀ i, adj m c i = 0#32 ∨ adj m c i = 1#32) (hs : ∀ i, sc m c i ≠ ⊤ ∧ sc m c i ≠ ⊥)
  (hr : ∀ i, rc m c i ≠ ⊤ ∧ rc m c i ≠ ⊥) (hH : ∀ i, Hc m c i ≠ ⊤ ∧ Hc m c i ≠ ⊥)
include hA hs hr hH

/-- What the last column block of a row block leaves in the output's staging buffer: the layer's output for its rows. -/
theorem out_at (t : Fin cfg0.N) (h0 : ¬t.val % 16 = 0) (h1 : t.val % 16 = 15) (p : Fin 1024) (d : Fin 64) :
    (outsAt0 m c t.val t.isLt).1 (ix2 p d)
      = out (adj m c) (Hc m c) (sc m c) (rc m c) ⟨1024 * (t.val / 16) + p.val, row_lt t p⟩ d := by
  have hN128 : cfg0.N = 128 := N_0
  have ht := t.isLt
  obtain ⟨cr0, hm0, hl0, ha0⟩ := inv m c hA hs hr hH (t.val - 1) (Nat.lt_of_le_of_lt (Nat.sub_le _ _) t.isLt) p
  have e1 : (t.val - 1) / 16 = t.val / 16 := by omega
  have e2 : 512 * ((t.val - 1) % 16) + 512 = 512 * (t.val % 16) := by omega
  rw [e1, e2] at hl0 ha0
  obtain ⟨cr, hm, hl, ha⟩ := point_step m c hA hs hr hH t p _ _ _ (Or.inr ⟨cr0, hm0, hl0, ha0⟩)
  have e3 : 512 * (t.val % 16) + 512 = 8192 := by omega
  rw [e3] at hl ha
  rw [outsAt0_C m c t h0 h1]
  dsimp only
  rw [last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun hq => h0 ((hcond0_0 t).mp hq)) ((hcond0_1 t).mpr h1) (iblk m c 0 t) (iblk m c 1 t) (iblk m c 2 t) (iblk m c 3 t) _ _ _, out_apply]
  dsimp only
  rw [head_idx 0 _ p d (by omega), head_idx 64 _ p d (by omega), head_idx 128 _ p d (by omega), head_idx 192 _ p d (by omega),
    whole_col_idx p, ha, ha, ha, ha, hl, ← EReal.coe_add, ← EReal.coe_add, ← EReal.coe_add,
    Cert.Attn.div_coe _ _ (ne_of_gt (wsum_pos _ _ (by norm_num)))]
  unfold out
  refine congrArg (fun z : ℝ => (z : EReal)) ?_
  have k0 : (⟨0 + d.val, by have := d.isLt; omega⟩ : Fin 256) = headCol 0 d := Fin.ext (by simp [headCol])
  have k1 : (⟨64 + d.val, by have := d.isLt; omega⟩ : Fin 256) = headCol 1 d := Fin.ext (by simp [headCol])
  have k2 : (⟨128 + d.val, by have := d.isLt; omega⟩ : Fin 256) = headCol 2 d := Fin.ext (by simp [headCol])
  have k3 : (⟨192 + d.val, by have := d.isLt; omega⟩ : Fin 256) = headCol 3 d := Fin.ext (by simp [headCol])
  rw [k0, k1, k2, k3]
  exact agg_of_sums (adj m c) (Hc m c) (sc m c) (rc m c) (1024 * (t.val / 16) + p.val) (row_lt t p) d cr

end

end Cert.KernelIdeal.KerValue

end
-- ==== Proof.PreFacts.lean ====
/-
  What the precondition says of the argument arrays.

  The precondition is a conjunction of six tests, each an "all" over one array reduced to a single bit: for each
  of the five float arrays, that the absolute value of every entry is below `+∞`; for the adjacency, that every
  entry equals `0` or equals `1`.  A conjunction of bits is `1` exactly when every bit is; an "all" that is `1`
  had a `1` at every entry.  On the extended reals the absolute value of `x` is `max x (-x)`, and
  `max x (-x) < ⊤` rules out both `x = ⊤` and `x = ⊥`: so every float entry is finite.
-/
import proofs.«124421_j80685255622923_2_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

/-- The rank-0 shape has one index. -/
instance subsingleton_S_ : Subsingleton S_.Idx := ⟨fun _ _ => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value is below `+∞` is neither infinity. -/
theorem finite_of_abs_lt_top (x : EReal) (h : max x (-x) < ⊤) : x ≠ ⊤ ∧ x ≠ ⊥ := by
  constructor
  · rintro rfl
    simp at h
  · rintro rfl
    simp at h

/-- The element test `|x| < +∞`, as a bit that is `1`, says `x` is finite. -/
theorem elem_finite (x : EReal)
    (h : Ideal.cmp .olt (max x (-x)) (Ideal.ofBits .f32 0x7F800000#32) = 1#1) : x ≠ ⊤ ∧ x ≠ ⊥ := by
  rw [ofBits_inf] at h
  refine finite_of_abs_lt_top x ?_
  unfold Ideal.cmp at h
  by_contra hn
  simp [hn] at h

/-- An "all entries have absolute value below `+∞`" test that is `1`: every entry of the array is finite. -/
theorem all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    ∀ i, x i ≠ ⊤ ∧ x i ≠ ⊥ := by
  intro i
  have h1 := Host.reduce_andi_all _ _ hr hu ix0 e i
  exact elem_finite (x i) h1

/-- An "every entry equals `0` or equals `1`" test that is `1`: every entry of the array is `0` or `1`. -/
theorem all_bit {s : Shape} {axes : List (Fin s.rank)} (A : IVec s 32)
    (hb : S_.BroadcastsInDim s (![] : Fin 0 → Fin s.rank)) (hr : s.ReducesTo axes S_) (hu : 0 < S_.numel)
    (e : Host.reduce IntOp.andi
        (ori (cmpi .eq A (broadcastInDim s ![] hb (constantI S_ 32 0#32)))
          (cmpi .eq A (broadcastInDim s ![] hb (constantI S_ 32 1#32))))
        (constantI S_ 1 1#1) hr hu ix0 = 1#1) :
    ∀ i, A i = 0#32 ∨ A i = 1#32 := by
  intro i
  have h1 := Host.reduce_andi_all _ _ hr hu ix0 e i
  have h2 : IntOp.ori (IntOp.cmpi .eq (A i) 0#32) (IntOp.cmpi .eq (A i) 1#32) = 1#1 := h1
  rcases IntOp.ori_eq_one.1 h2 with h3 | h3
  · exact Or.inl (IntOp.cmpi_eq.1 h3)
  · exact Or.inr (IntOp.cmpi_eq.1 h3)

/-- THE PRECONDITION DECODED: every float argument entry is finite and every adjacency entry is `0` or `1`. -/
theorem of_pre [Cert.Pre_finite_inputs.Facts] (X : FVec Ideal S8192x256 .f32) (A : IVec S8192x8192 32)
    (W : FVec Ideal S256x256 .f32) (b : FVec Ideal S256 .f32) (a_s a_r : FVec Ideal S256x1 .f32)
    (h : Cert.Pre_finite_inputs.fn (F := Ideal) X A W b a_s a_r = fun _ => 1#1) :
    (∀ i, X i ≠ ⊤ ∧ X i ≠ ⊥) ∧ (∀ i, W i ≠ ⊤ ∧ W i ≠ ⊥) ∧ (∀ i, b i ≠ ⊤ ∧ b i ≠ ⊥) ∧
      (∀ i, a_s i ≠ ⊤ ∧ a_s i ≠ ⊥) ∧ (∀ i, a_r i ≠ ⊤ ∧ a_r i ≠ ⊥) ∧ (∀ i, A i = 0#32 ∨ A i = 1#32) := by
  have e := congrFun h ix0
  simp only [Cert.Pre_finite_inputs.fn, Cert.Pre_finite_inputs.fn_part1, andi, IntOp.andi_eq_one] at e
  obtain ⟨⟨⟨⟨⟨hX, hW⟩, hb⟩, has⟩, har⟩, hA⟩ := e
  exact ⟨all_finite X _ _ _ hX, all_finite W _ _ _ hW, all_finite b _ _ _ hb, all_finite a_s _ _ _ has,
    all_finite a_r _ _ _ har, all_bit A _ _ _ hA⟩

end Cert.PreFacts

end
-- ==== Proof.HostFinite.lean ====
/-
  The arrays both programs compute on the host before anything else are finite when the argument arrays are.

  Every entry of a contraction is a finite sum of products of two entries; a product of two finite extended
  reals is (the coercion of) the product of their real parts, a finite sum of coercions is the coercion of the
  sum, and a coercion of a real is neither `⊤` nor `⊥`.  A transpose and a broadcast only re-index, so every
  entry they read is an entry of their operand.  The sum of two finite extended reals is finite.
-/
import proofs.«124421_j80685255622923_2_alg».proof.Proof.HostPart
import Idealize.ShloMosaic.PureOps.Ideal.Laws
import Idealize.ShloMosaic.Lib.ValueIdx

noncomputable section

namespace Cert.HostPart

open Idealize.ShloMosaic Idealize.ShloMosaic.ValueIdx

/-- A finite sum of coercions of reals is the coercion of the sum of the reals. -/
theorem coe_sum_real {ι : Type} (t : Finset ι) (f : ι → ℝ) :
    (∑ k ∈ t, ((f k : ℝ) : EReal)) = ((∑ k ∈ t, f k : ℝ) : EReal) := by
  classical
  refine Finset.induction_on t ?_ ?_
  · simp
  · intro a t ha ih
    rw [Finset.sum_insert ha, Finset.sum_insert ha, ih, EReal.coe_add]

/-- A finite sum of products of finite extended reals is finite. -/
theorem sum_mul_finite {ι : Type} (t : Finset ι) (f g : ι → EReal) (hf : ∀ k, f k ≠ ⊤ ∧ f k ≠ ⊥)
    (hg : ∀ k, g k ≠ ⊤ ∧ g k ≠ ⊥) : (∑ k ∈ t, f k * g k) ≠ ⊤ ∧ (∑ k ∈ t, f k * g k) ≠ ⊥ := by
  have e : (∑ k ∈ t, f k * g k) = ((∑ k ∈ t, (f k).toReal * (g k).toReal : ℝ) : EReal) := by
    rw [← coe_sum_real]
    refine Finset.sum_congr rfl fun k _ => ?_
    rw [EReal.coe_mul, EReal.coe_toReal (hf k).1 (hf k).2, EReal.coe_toReal (hg k).1 (hg k).2]
  rw [e]
  exact ⟨EReal.coe_ne_top _, EReal.coe_ne_bot _⟩

/-- The sum of two finite extended reals is finite. -/
theorem add_finite (x y : EReal) (hx : x ≠ ⊤ ∧ x ≠ ⊥) (hy : y ≠ ⊤ ∧ y ≠ ⊥) : x + y ≠ ⊤ ∧ x + y ≠ ⊥ := by
  rw [← EReal.coe_toReal hx.1 hx.2, ← EReal.coe_toReal hy.1 hy.2, ← EReal.coe_add]
  exact ⟨EReal.coe_ne_top _, EReal.coe_ne_bot _⟩

/-- Every entry of a host contraction of two finite arrays is finite. -/
theorem dot_finite {sl sr so : Shape} {φ₁ φ₂ : FTy} (d : DotDims sl sr so) (l : FVec Ideal sl φ₁)
    (r : FVec Ideal sr φ₂) (hl : ∀ i, l i ≠ ⊤ ∧ l i ≠ ⊥) (hr : ∀ i, r i ≠ ⊤ ∧ r i ≠ ⊥) :
    ∀ j, Host.dotGeneral d none l r j ≠ ⊤ ∧ Host.dotGeneral d none l r j ≠ ⊥ := by
  intro j
  simp only [Host.dotGeneral]
  rw [Ideal.dotGeneral_apply]
  exact sum_mul_finite Finset.univ (fun k => l (d.lhsIdx j k)) (fun k => r (d.rhsIdx j k))
    (fun k => hl _) (fun k => hr _)

/-- A transpose reads only entries of its operand. -/
theorem transpose_finite {s t : Shape} {φ : FTy} (perm : List (Fin s.rank)) (x : FVec Ideal s φ)
    (h : s.Transposes perm t) (hx : ∀ i, x i ≠ ⊤ ∧ x i ≠ ⊥) :
    ∀ j, transpose t perm x h j ≠ ⊤ ∧ transpose t perm x h j ≠ ⊥ := by
  intro j
  unfold transpose
  exact hx _

/-- A broadcast reads only entries of its operand. -/
theorem broadcastInDim_finite {s t : Shape} {φ : FTy} (dims : Fin s.rank → Fin t.rank)
    (h : s.BroadcastsInDim t dims) (x : FVec Ideal s φ) (hx : ∀ i, x i ≠ ⊤ ∧ x i ≠ ⊥) :
    ∀ j, broadcastInDim t dims h x j ≠ ⊤ ∧ broadcastInDim t dims h x j ≠ ⊥ := by
  intro j
  unfold broadcastInDim
  exact hx _

/-- The projected features are finite when the node features, the weights and the bias are. -/
theorem Hin_finite (wf : DotDims.WF SX SW SX [1] [0] [0] [1] [] []) (ht : SW.Transposes [1, 0] SW)
    (hb1 : SB.BroadcastsInDim SB1 (![1] : Fin 1 → Fin SB1.rank))
    (hb2 : SB1.BroadcastsInDim SX (![0, 1] : Fin 2 → Fin SX.rank))
    (X : FVec Ideal SX .f32) (W : FVec Ideal SW .f32) (b : FVec Ideal SB .f32)
    (hX : ∀ i, X i ≠ ⊤ ∧ X i ≠ ⊥) (hW : ∀ i, W i ≠ ⊤ ∧ W i ≠ ⊥) (hb : ∀ i, b i ≠ ⊤ ∧ b i ≠ ⊥) :
    ∀ i, Hin wf ht hb1 hb2 X W b i ≠ ⊤ ∧ Hin wf ht hb1 hb2 X W b i ≠ ⊥ := by
  intro i
  unfold Hin
  rw [addf_apply]
  exact add_finite _ _
    (dot_finite (dotH wf) X (transpose SW [1, 0] W ht) hX (transpose_finite _ W ht hW) i)
    (broadcastInDim_finite _ hb2 _ (broadcastInDim_finite _ hb1 b hb) i)

/-- A logit column is finite when the features and the attention vector are. -/
theorem lin_finite (wf : DotDims.WF SX SC SV [1] [0] [0] [1] [] []) (H : FVec Ideal SX .f32)
    (a : FVec Ideal SC .f32) (hH : ∀ i, H i ≠ ⊤ ∧ H i ≠ ⊥) (ha : ∀ i, a i ≠ ⊤ ∧ a i ≠ ⊥) :
    ∀ i, lin wf H a i ≠ ⊤ ∧ lin wf H a i ≠ ⊥ := by
  intro i
  unfold lin
  exact dot_finite (dotV wf) H a hH ha i

end Cert.HostPart

end
-- ==== Proof.KerHyps.lean ====
/-
  What the precondition gives the kernel side, on each device.

  The precondition says every float argument entry is finite and every adjacency entry is `0` or `1`.  The
  projected features are a contraction of finite arrays plus a broadcast finite bias, hence finite; each logit
  column is a contraction of the finite features against a finite vector, hence finite.
-/
import proofs.«124421_j80685255622923_2_alg».proof.Proof.KerBlocks
import proofs.«124421_j80685255622923_2_alg».proof.Proof.PreFacts
import proofs.«124421_j80685255622923_2_alg».proof.Proof.HostFinite
import proofs.«124421_j80685255622923_2_alg».proof.Defs
import proofs.«124421_j80685255622923_2_alg».proof.Proof.Gen.Pre_finite_inputs

noncomputable section

namespace Cert.KernelIdeal.KerValue

open Cert.KernelIdeal Cert.KernelIdeal.Gen Idealize.ShloMosaic Idealize.ShloMosaic.ValueIdx Cert.HostPart

variable (m : (ℓ : Loc nD τ sig) → Buf (Elt Ideal) ℓ)

/-- Under the precondition, on device `c`: the adjacency is 0/1 and the logits and the features are finite. -/
theorem hyps_of_pre (hpre : Cert.Pre_KernelIdeal (hPre_finite_inputs := Cert.Pre_finite_inputs.Gen.facts) m)
    (c : Dev nD) :
    (∀ i : S8192x8192.Idx,
        (m ((c.tc : Thread Cert.KernelIdeal.nD Cert.KernelIdeal.τ).loc Cert.KernelIdeal.main_arg1) : IVec S8192x8192 32) i
            = 0#32 ∨
          (m ((c.tc : Thread Cert.KernelIdeal.nD Cert.KernelIdeal.τ).loc Cert.KernelIdeal.main_arg1) : IVec S8192x8192 32) i
            = 1#32)
      ∧ (∀ i, sc m c i ≠ ⊤ ∧ sc m c i ≠ ⊥) ∧ (∀ i, rc m c i ≠ ⊤ ∧ rc m c i ≠ ⊥)
      ∧ (∀ i, Hc m c i ≠ ⊤ ∧ Hc m c i ≠ ⊥) := by
  obtain ⟨hX, hW, hb, has, har, hA⟩ := Cert.PreFacts.of_pre _ _ _ _ _ _ (hpre c)
  have hH := Hin_finite Facts₀.dot_S8192x256_S256x256_S8192x256_1_0_0_1_n_n_wf Facts₀.transposes_S256x256_S256x256_1_0
    Facts₀.bcast_S256_S1x256_1 Facts₀.bcast_S1x256_S8192x256_0_1 _ _ _ hX hW hb
  exact ⟨hA, lin_finite _ _ _ hH has, lin_finite _ _ _ hH har, hH⟩

end Cert.KernelIdeal.KerValue

end
-- ==== Proof.KerRun.lean ====
/-
  The kernel's run, read: the result array ends holding the layer's output, the arguments unchanged.

  The output window writes back at the last column block of each row block only; what it writes is the layer's
  output for the block's 1024 rows, and the eight blocks cover the 8192 rows.
-/
import proofs.«124421_j80685255622923_2_alg».proof.Proof.KerFinal
import proofs.«124421_j80685255622923_2_alg».proof.Proof.KerHyps

set_option maxRecDepth 16384

noncomputable section

namespace Cert.KernelIdeal.KerValue

open Cert.KernelIdeal Cert.KernelIdeal.Gen Idealize.ShloMosaic Idealize.ShloMosaic.TcCoe Idealize.ShloMosaic.ValueIdx Cert.HostPart
open Idealize.SL.Sem Cert.Attn
open Idealize.ShloMosaic.Pipeline (Dat)

variable (m : (ℓ : Loc nD τ sig) → Buf (Elt Ideal) ℓ) (ρ : Dev nD → PrngReg)

section
variable (c : Dev nD) (hA : ∀ i, adj m c i = 0#32 ∨ adj m c i = 1#32) (hs : ∀ i, sc m c i ≠ ⊤ ∧ sc m c i ≠ ⊥)
  (hr : ∀ i, rc m c i ≠ ⊤ ∧ rc m c i ≠ ⊥) (hH : ∀ i, Hc m c i ≠ ⊤ ∧ Hc m c i ≠ ⊥)
include hA hs hr hH

/-- A writing point writes the layer's output for its block of rows. -/
theorem flushed_eq (t : Fin cfg0.N) (hf : (cfg0.win 4).flush t = true) :
    (dats m 0 c).flushed 4 t
      = ((cfg0.win 4).blk t).view.read (Elt Ideal) (G (adj m c) (Hc m c) (sc m c) (rc m c)) := by
  have h1 : t.val % 16 = 15 := (flush_iff t).mp hf
  have h0 : ¬t.val % 16 = 0 := by omega
  rw [Cert.KernelIdeal.Value.flushed4]
  refine (out_cut t _).trans ?_
  funext y
  obtain ⟨p, d, rfl⟩ : ∃ (p : Fin 1024) (d : Fin 64), y = ix2 p d := ⟨y 0, y 1, eq_ix2 y⟩
  rw [out_read t _ p d, G_ix2]
  exact out_at m c hA hs hr hH t h0 h1 p d

/-- So the result array ends holding the layer's output. -/
theorem final : (dats m 0 c).arrAt 4 cfg0.N = G (adj m c) (Hc m c) (sc m c) (rc m c) :=
  (dats m 0 c).arrAt_eq_of_cover 4 (G (adj m c) (Hc m c) (sc m c) (rc m c)) (flushed_eq m c hA hs hr hH) out_cover

end

/-- The run of the idealized kernel under the precondition. -/
theorem run (hpre : Cert.Pre_KernelIdeal (hPre_finite_inputs := Cert.Pre_finite_inputs.Gen.facts) m) :
    θ_run defs (onTc (τ := τ) (main (F := Ideal))) ⟨m, fun _ => 0, ρ⟩ fun r => ∀ c : Dev nD,
      r.2.mem ((c : Thread nD τ).loc main_v9) = G (adj m c) (Hc m c) (sc m c) (rc m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
      obtain ⟨hA, hs, hr, hH⟩ := hyps_of_pre m hpre c
      exact ⟨(h c).1.trans (final m c hA hs hr hH), (h c).2⟩)
    (Cert.KernelIdeal.Value.run_blocks m ρ)

end Cert.KernelIdeal.KerValue

end
-- ==== Proof.RefRun.lean ====
/-
  The reference program's run, read back.

  The program is a straight line of host operations once its three outlined functions (the leaky rectifier,
  which itself calls a three-way select, and the masked select) are unfolded at their call sites, each
  operation of a callee over the buffers that call names.  Every weakly fair execution of it terminates with
  the result buffer at the composed term of the six argument arrays and with the arguments unchanged.

  The composed term is stated in two layers: the projected features and the two logit columns (three matrix
  products on the arguments), and everything after them as a function `tail` of the adjacency and those three
  arrays.
-/
import proofs.«124421_j80685255622923_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 46 operations in order, the calls unfolded: the leaky rectifier is seven (the zero, its
    broadcast, the comparison, the slope converted to its own type, its broadcast, the product, the select of
    the inner call), the masked select two (the fill's broadcast, the select). -/
abbrev ops : List (HloOp τ sig (Elt F)) :=
  [ unary main_arg1 main_v0 (sitofp .f32 : (⟨S8192x8192, .i32⟩ : BufTy).Contents (Elt F) → (⟨S8192x8192, .f32⟩ : BufTy).Contents (Elt F)),
    unary main_arg2 main_v1 ((transpose S256x256 [1, 0] · transposes_S256x256_S256x256_1_0) : (⟨S256x256, .f32⟩ : BufTy).Contents (Elt F) → (⟨S256x256, .f32⟩ : BufTy).Contents (Elt F)),
    binary main_arg0 main_v1 main_v2 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg3 main_v3 (broadcastInDim S1x256 ![1] bcast_S256_S1x256_1 : (⟨S256, .f32⟩ : BufTy).Contents (Elt F) → (⟨S1x256, .f32⟩ : BufTy).Contents (Elt F)),
    unary main_v3 main_v4 (broadcastInDim S8192x256 ![0, 1] bcast_S1x256_S8192x256_0_1 : (⟨S1x256, .f32⟩ : BufTy).Contents (Elt F) → (⟨S8192x256, .f32⟩ : BufTy).Contents (Elt F)),
    binary main_v2 main_v4 main_v5 (addf : (⟨S8192x256, .f32⟩ : BufTy).Contents (Elt F) → (⟨S8192x256, .f32⟩ : BufTy).Contents (Elt F) → (⟨S8192x256, .f32⟩ : BufTy).Contents (Elt F)),
    binary main_v5 main_arg4 main_v6 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v5 main_arg5 main_v7 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v6 main_v8 (broadcastInDim S8192x8192 ![0, 1] bcast_S8192x1_S8192x8192_0_1 : (⟨S8192x1, .f32⟩ : BufTy).Contents (Elt F) → (⟨S8192x8192, .f32⟩ : BufTy).Contents (Elt F)),
    binary main_v0 main_v8 main_v9 (mulf : (⟨S8192x8192, .f32⟩ : BufTy).Contents (Elt F) → (⟨S8192x8192, .f32⟩ : BufTy).Contents (Elt F) → (⟨S8192x8192, .f32⟩ : BufTy).Contents (Elt F)),
    unary main_v7 main_v10 ((transpose S1x8192 [1, 0] · transposes_S8192x1_S1x8192_1_0) : (⟨S8192x1, .f32⟩ : BufTy).Contents (Elt F) → (⟨S1x8192, .f32⟩ : BufTy).Contents (Elt F)),
    unary main_v10 main_v11 (broadcastInDim S8192x8192 ![0, 1] bcast_S1x8192_S8192x8192_0_1 : (⟨S1x8192, .f32⟩ : BufTy).Contents (Elt F) → (⟨S8192x8192, .f32⟩ : BufTy).Contents (Elt F)),
    binary main_v0 main_v11 main_v12 (mulf : (⟨S8192x8192, .f32⟩ : BufTy).Contents (Elt F) → (⟨S8192x8192, .f32⟩ : BufTy).Contents (Elt F) → (⟨S8192x8192, .f32⟩ : BufTy).Contents (Elt F)),
    binary main_v9 main_v12 main_v13 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v13 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v13 : TRef sig ⟨S8192x8192, .f32⟩) main_call0.v4 mulf,
    TRef.ternary main_call0.v1 (.of main_v13 : TRef sig ⟨S8192x8192, .f32⟩) main_call0.v4 main_call0.call0.v0 select,
    nullary main_cst_0 (constant S_ .f32 0x00000000#32),
    unary main_cst_0 main_v15 (broadcastInDim S8192x8192 ![] bcast_S_S8192x8192 : (⟨S_, .f32⟩ : BufTy).Contents (Elt F) → (⟨S8192x8192, .f32⟩ : BufTy).Contents (Elt F)),
    binary main_v0 main_v15 main_v16 (cmpf .ogt : (⟨S8192x8192, .f32⟩ : BufTy).Contents (Elt F) → (⟨S8192x8192, .f32⟩ : BufTy).Contents (Elt F) → (⟨S8192x8192, .i1⟩ : BufTy).Contents (Elt F)),
    nullary main_cst_1 (constant S_ .f32 0xD9FFCB9E#32),
    TRef.unary (.of main_cst_1 : TRef sig ⟨S_, .f32⟩) main_call1.v0 (broadcastInDim S8192x8192 ![] bcast_S_S8192x8192),
    TRef.ternary (.of main_v16 : TRef sig ⟨S8192x8192, .i1⟩) (.of main_v14 : TRef sig ⟨S8192x8192, .f32⟩) main_call1.v0 main_call1.v1 select,
    nullary main_cst_2 (constant S_ .f32 0xFF800000#32),
    binary main_v17 main_cst_2 main_v18 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v19 (broadcastInDim S8192 ![] bcast_S_S8192 : (⟨S_, .f32⟩ : BufTy).Contents (Elt F) → (⟨S8192, .f32⟩ : BufTy).Contents (Elt F)),
    binary main_v19 main_v18 main_v20 (maximumf : (⟨S8192, .f32⟩ : BufTy).Contents (Elt F) → (⟨S8192, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v17 main_v22 main_v23 (subf : (⟨S8192x8192, .f32⟩ : BufTy).Contents (Elt F) → (⟨S8192x8192, .f32⟩ : BufTy).Contents (Elt F) → (⟨S8192x8192, .f32⟩ : BufTy).Contents (Elt F)),
    unary main_v23 main_v24 (Host.exp : (⟨S8192x8192, .f32⟩ : BufTy).Contents (Elt F) → (⟨S8192x8192, .f32⟩ : BufTy).Contents (Elt F)),
    nullary main_cst_4 (constant S_ .f32 0x00000000#32),
    binary main_v24 main_cst_4 main_v25 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v25 main_v26 (broadcastInDim S8192x1 ![0] bcast_S8192_S8192x1_0 : (⟨S8192, .f32⟩ : BufTy).Contents (Elt F) → (⟨S8192x1, .f32⟩ : BufTy).Contents (Elt F)),
    unary main_v26 main_v27 (broadcastInDim S8192x8192 ![0, 1] bcast_S8192x1_S8192x8192_0_1 : (⟨S8192x1, .f32⟩ : BufTy).Contents (Elt F) → (⟨S8192x8192, .f32⟩ : BufTy).Contents (Elt F)),
    binary main_v24 main_v27 main_v28 (Host.divf : (⟨S8192x8192, .f32⟩ : BufTy).Contents (Elt F) → (⟨S8192x8192, .f32⟩ : BufTy).Contents (Elt F) → (⟨S8192x8192, .f32⟩ : BufTy).Contents (Elt F)),
    binary main_v28 main_v5 main_v29 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    reshape main_v29 main_v30 rfl shapeCasts_S8192x256_S8192x4x64,
    nullary main_cst_5 (constant S_ .f32 0x00000000#32),
    binary main_v30 main_cst_5 main_v31 ((fun x v => Host.reduceAdd x v reducesTo_S8192x4x64_S8192x64_d1 h_S_) : (⟨S8192x4x64, .f32⟩ : BufTy).Contents (Elt F) → (⟨S_, .f32⟩ : BufTy).Contents (Elt F) → (⟨S8192x64, .f32⟩ : BufTy).Contents (Elt F)) ]

-- forty-six binds re-associated: the rewrite under the chain recurses once per statement
set_option maxRecDepth 1024 in
/-- The program is that straight line: the functions' definitions unfolded at their calls and the records at
    their fields, both sides are one chain of steps once sequencing is re-associated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., binary_bufs_sub .., unary_bufs_sub .., binary_bufs_sub .., unary_bufs_sub .., unary_bufs_sub ..,
    binary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., reshape_bufs_sub .., nullary_bufs_sub .., binary_bufs_sub ..⟩

/-! ## The composed term

Stage by stage, so that each stage can be read at an index on its own.  `tail` is everything after the three
matrix products on the arguments: it takes the adjacency, the projected features and the two logit columns. -/

/-- The adjacency as floats. -/
def adjF (A : IVec S8192x8192 32) : FVec Ideal S8192x8192 .f32 := sitofp .f32 A

/-- The pre-activations: the adjacency times the source logit of the row plus the adjacency times the receiver
    logit of the column. -/
def pre (A : IVec S8192x8192 32) (s r : FVec Ideal S8192x1 .f32) : FVec Ideal S8192x8192 .f32 :=
  addf (mulf (adjF A) (broadcastInDim S8192x8192 ![0, 1] bcast_S8192x1_S8192x8192_0_1 s))
    (mulf (adjF A) (broadcastInDim S8192x8192 ![0, 1] bcast_S1x8192_S8192x8192_0_1
      (transpose S1x8192 [1, 0] r transposes_S8192x1_S1x8192_1_0)))

/-- The leaky rectifier, elementwise: the entry where it is at least zero, the slope times it elsewhere. -/
def lrelu (M : FVec Ideal S8192x8192 .f32) : FVec Ideal S8192x8192 .f32 :=
  select (cmpf .oge M (broadcastInDim S8192x8192 ![] bcast_S_S8192x8192 (constant S_ .f32 0x00000000#32))) M
    (mulf (broadcastInDim S8192x8192 ![] bcast_S_S8192x8192 (constant S_ .f32 0x3E4CCCCD#32)) M)

/-- The masked scores: the rectified entry on an edge, the fill elsewhere. -/
def masked (A : IVec S8192x8192 32) (L : FVec Ideal S8192x8192 .f32) : FVec Ideal S8192x8192 .f32 :=
  select (cmpf .ogt (adjF A) (broadcastInDim S8192x8192 ![] bcast_S_S8192x8192 (constant S_ .f32 0x00000000#32))) L
    (broadcastInDim S8192x8192 ![] bcast_S_S8192x8192 (constant S_ .f32 0xD9FFCB9E#32))

/-- The row maxima, folded from minus infinity and once more compared with it. -/
def rowMax (Sc : FVec Ideal S8192x8192 .f32) : FVec Ideal S8192 .f32 :=
  maximumf (broadcastInDim S8192 ![] bcast_S_S8192 (constant S_ .f32 0xFF800000#32))
    (Host.reduce FloatOps.maximumf Sc (constant S_ .f32 0xFF800000#32) reducesTo_S8192x8192_S8192_d1 h_S_)

/-- The exponentials of the scores less their row's maximum. -/
def expo (Sc : FVec Ideal S8192x8192 .f32) : FVec Ideal S8192x8192 .f32 :=
  Host.exp (subf Sc (broadcastInDim S8192x8192 ![0, 1] bcast_S8192x1_S8192x8192_0_1
    (broadcastInDim S8192x1 ![0] bcast_S8192_S8192x1_0 (rowMax Sc))))

/-- Each entry over its row's sum. -/
def soft (E : FVec Ideal S8192x8192 .f32) : FVec Ideal S8192x8192 .f32 :=
  Host.divf E (broadcastInDim S8192x8192 ![0, 1] bcast_S8192x1_S8192x8192_0_1
    (broadcastInDim S8192x1 ![0] bcast_S8192_S8192x1_0
      (Host.reduceAdd E (constant S_ .f32 0x00000000#32) reducesTo_S8192x8192_S8192_d1 h_S_)))

/-- The attention weights from the adjacency and the two logit columns. -/
def weights (A : IVec S8192x8192 32) (s r : FVec Ideal S8192x1 .f32) : FVec Ideal S8192x8192 .f32 :=
  soft (expo (masked A (lrelu (pre A s r))))

/-- Everything after the three matrix products on the arguments: the weights times the features, the 256 columns
    split into four heads of 64, the heads added. -/
def tail (A : IVec S8192x8192 32) (H : FVec Ideal S8192x256 .f32) (s r : FVec Ideal S8192x1 .f32) :
    FVec Ideal S8192x64 .f32 :=
  Host.reduceAdd
    (shapeCast S8192x4x64 (Host.dotGeneral dot_S8192x8192_S8192x256_S8192x256_1_0_0_1_n_n none (weights A s r) H)
      shapeCasts_S8192x256_S8192x4x64)
    (constant S_ .f32 0x00000000#32) reducesTo_S8192x4x64_S8192x64_d1 h_S_

/-- The projected features: the input times the transposed weight matrix, plus the bias on every row. -/
def featH (X : FVec Ideal S8192x256 .f32) (W : FVec Ideal S256x256 .f32) (b : FVec Ideal S256 .f32) :
    FVec Ideal S8192x256 .f32 :=
  addf (Host.dotGeneral dot_S8192x256_S256x256_S8192x256_1_0_0_1_n_n none X
      (transpose S256x256 [1, 0] W transposes_S256x256_S256x256_1_0))
    (broadcastInDim S8192x256 ![0, 1] bcast_S1x256_S8192x256_0_1 (broadcastInDim S1x256 ![1] bcast_S256_S1x256_1 b))

/-- A logit column: the features times an attention vector. -/
def logit (H : FVec Ideal S8192x256 .f32) (a : FVec Ideal S256x1 .f32) : FVec Ideal S8192x1 .f32 :=
  Host.dotGeneral dot_S8192x256_S256x1_S8192x1_1_0_0_1_n_n none H a

/-- The result buffer as the composed term of the program's operations, a function of the six argument arrays. -/
def refOut (X : FVec Ideal S8192x256 .f32) (A : IVec S8192x8192 32) (W : FVec Ideal S256x256 .f32)
    (b : FVec Ideal S256 .f32) (a_s a_r : FVec Ideal S256x1 .f32) : FVec Ideal S8192x64 .f32 :=
  tail A (featH X W b) (logit (featH X W b) a_s) (logit (featH X W b) a_r)

/-! ## The run -/

/-- On every device, from any memory with zero counters: every weakly fair execution of the program terminates
    with the result at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v31).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.RefRead.lean ====
/-
  The reference's score matrix, read at an index.

  Each layout operation of the chain (a column or a row broadcast across the square, the transpose of a column,
  a vector made a column, a scalar broadcast) reads its operand at the evident index.  With the logits finite
  and the adjacency 0 or 1, the masked and rectified pre-activation at row `i`, column `j` is the coercion of
  the real score of the statement: off an edge both products are zero times a finite number and the select
  takes the fill; on an edge the products are the logits themselves and the rectifier acts on their real sum.
-/
import proofs.«124421_j80685255622923_2_alg».proof.Proof.RefRun
import proofs.«124421_j80685255622923_2_alg».proof.Proof.RealOps
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Cert.Attn

/-! ### The layout operations at an index -/

/-- A column broadcast across the square reads the column at the row. -/
theorem bcastRow_apply (v : FVec Ideal S8192x1 .f32) (i j : Fin 8192) :
    broadcastInDim S8192x8192 ![0, 1] bcast_S8192x1_S8192x8192_0_1 v (ix2 i j) = v (ix2 i (0 : Fin 1)) :=
  broadcastInDim_apply _ _ v (ix2 i j) (ix2 i (0 : Fin 1)) fun a => by
    match a with
    | ⟨0, _⟩ => rfl
    | ⟨1, _⟩ => rfl

/-- A row broadcast across the square reads the row at the column. -/
theorem bcastCol_apply (v : FVec Ideal S1x8192 .f32) (i j : Fin 8192) :
    broadcastInDim S8192x8192 ![0, 1] bcast_S1x8192_S8192x8192_0_1 v (ix2 i j) = v (ix2 (0 : Fin 1) j) :=
  broadcastInDim_apply _ _ v (ix2 i j) (ix2 (0 : Fin 1) j) fun a => by
    match a with
    | ⟨0, _⟩ => rfl
    | ⟨1, _⟩ => rfl

/-- The transpose of a column is the row with the same entries. -/
theorem transposeCol_apply (r : FVec Ideal S8192x1 .f32) (j : Fin 8192) :
    transpose S1x8192 [1, 0] r transposes_S8192x1_S1x8192_1_0 (ix2 (0 : Fin 1) j) = r (ix2 j (0 : Fin 1)) :=
  transpose_apply [1, 0] r _ (ix2 (0 : Fin 1) j) (ix2 j (0 : Fin 1)) fun b => by
    match b with
    | ⟨0, _⟩ => rfl
    | ⟨1, _⟩ => rfl

/-- A vector made a column reads the vector at the row. -/
theorem bcastVec_apply (v : FVec Ideal S8192 .f32) (i : Fin 8192) :
    broadcastInDim S8192x1 ![0] bcast_S8192_S8192x1_0 v (ix2 i (0 : Fin 1)) = v (ix1 i) :=
  broadcastInDim_apply _ _ v (ix2 i (0 : Fin 1)) (ix1 i) fun a => by
    match a with
    | ⟨0, _⟩ => rfl

/-- A vector made a column and then broadcast across the square reads the vector at the row. -/
theorem bcastVecRow_apply (v : FVec Ideal S8192 .f32) (i j : Fin 8192) :
    broadcastInDim S8192x8192 ![0, 1] bcast_S8192x1_S8192x8192_0_1
      (broadcastInDim S8192x1 ![0] bcast_S8192_S8192x1_0 v) (ix2 i j) = v (ix1 i) := by
  rw [bcastRow_apply, bcastVec_apply]

/-- A scalar constant broadcast across the square reads the extended real its pattern denotes. -/
theorem bcastConst_apply (w : BitVec 32) (i j : Fin 8192) :
    broadcastInDim S8192x8192 ![] bcast_S_S8192x8192 (constant (F := Ideal) S_ .f32 w) (ix2 i j) = Ideal.ofBits .f32 w := by
  rw [broadcastInDim_scalar_apply]; rfl

/-! ### The scores -/

/-- The adjacency entry as a float. -/
theorem adjF_apply (A : IVec S8192x8192 32) (i j : Fin 8192) :
    adjF A (ix2 i j) = FloatOps.sitofp (F := Ideal) .f32 (A (ix2 i j)) := rfl

/-- The pre-activation at an entry. -/
theorem pre_apply (A : IVec S8192x8192 32) (s r : FVec Ideal S8192x1 .f32) (i j : Fin 8192) :
    pre A s r (ix2 i j)
      = adjF A (ix2 i j) * s (ix2 i (0 : Fin 1)) + adjF A (ix2 i j) * r (ix2 j (0 : Fin 1)) := by
  unfold pre
  rw [addf_apply, mulf_apply, mulf_apply, bcastRow_apply, bcastCol_apply, transposeCol_apply]

/-- The rectifier at an entry. -/
theorem lrelu_apply (M : FVec Ideal S8192x8192 .f32) (i j : Fin 8192) :
    lrelu M (ix2 i j)
      = Scalar.select (Ideal.cmp .oge (M (ix2 i j)) 0) (M (ix2 i j)) (((α : ℝ) : EReal) * M (ix2 i j)) := by
  unfold lrelu
  rw [select_apply, cmpf_apply, mulf_apply, bcastConst_apply, bcastConst_apply, Ideal.ofBits_zero_f32, alpha_coe]
  rfl

/-- The masked score at an entry. -/
theorem masked_apply (A : IVec S8192x8192 32) (L : FVec Ideal S8192x8192 .f32) (i j : Fin 8192) :
    masked A L (ix2 i j)
      = Scalar.select (Ideal.cmp .ogt (adjF A (ix2 i j)) 0) (L (ix2 i j)) ((ν : ℝ) : EReal) := by
  unfold masked
  rw [select_apply, cmpf_apply, bcastConst_apply, bcastConst_apply, Ideal.ofBits_zero_f32, nu_coe]
  rfl

/-- With finite logits and a 0/1 adjacency the masked, rectified pre-activation is the real score. -/
theorem score_apply (A : IVec S8192x8192 32) (s r : FVec Ideal S8192x1 .f32)
    (hs : ∀ k, s k ≠ ⊤ ∧ s k ≠ ⊥) (hr : ∀ k, r k ≠ ⊤ ∧ r k ≠ ⊥) (hA : ∀ k, A k = 0#32 ∨ A k = 1#32)
    (i j : Fin 8192) :
    masked A (lrelu (pre A s r)) (ix2 i j) = ((scores A s r i j : ℝ) : EReal) := by
  rw [masked_apply, lrelu_apply, pre_apply, adjF_apply]
  obtain ⟨x, hx⟩ : ∃ x : ℝ, s (ix2 i (0 : Fin 1)) = (x : EReal) := ⟨_, (EReal.coe_toReal (hs _).1 (hs _).2).symm⟩
  obtain ⟨y, hy⟩ : ∃ y : ℝ, r (ix2 j (0 : Fin 1)) = (y : EReal) := ⟨_, (EReal.coe_toReal (hr _).1 (hr _).2).symm⟩
  unfold scores mscore
  rw [hx, hy, EReal.toReal_coe, EReal.toReal_coe]
  rcases hA (ix2 i j) with h0 | h1
  · rw [h0, sitofp_zero, if_neg (by decide)]
    rw [← EReal.coe_zero, cmp_ogt_coe, if_neg (lt_irrefl _), select_zero]
  · rw [h1, sitofp_one, if_pos rfl, one_mul, one_mul, ← EReal.coe_add]
    rw [show (1 : EReal) = ((1 : ℝ) : EReal) from rfl, ← EReal.coe_zero, cmp_ogt_coe, if_pos one_pos, select_one,
      cmp_oge_coe]
    unfold leaky
    by_cases h : 0 ≤ x + y
    · rw [if_pos h, if_pos h, select_one]
    · rw [if_neg h, if_neg h, select_zero, ← EReal.coe_mul]

end Cert.ReferenceIdeal.RefValue

end
-- ==== Proof.RefValue.lean ====
/-
  The reference's result is the attention layer of the statement.

  Row by row.  The scores of row `i` are the coercions of the real scores (the previous module).  Their maximum,
  folded from minus infinity over a nonempty row of reals, is some real `c`; the exponentials of the scores
  less `c` are the coercions of real exponentials, their sum is a positive real, and each weight is the
  coercion of a real quotient.  The product with the feature matrix is then a real sum, the reshape picks
  column `64 h + d` for head `h`, and the sum over the four heads is the statement's aggregate, whatever `c`
  was: a softmax does not see a common shift of its scores.
-/
import proofs.«124421_j80685255622923_2_alg».proof.Proof.RefRead
import proofs.«124421_j80685255622923_2_alg».proof.Proof.RealAgg
import proofs.«124421_j80685255622923_2_alg».proof.Proof.HostPart
import Idealize.ShloMosaic.Lib.StackMember

noncomputable section

namespace Cert.ReferenceIdeal.RefValue

open Cert.ReferenceIdeal Cert.ReferenceIdeal.Gen Idealize.ShloMosaic Idealize.ShloMosaic.ValueIdx Cert.Attn

/-! ### Reductions along a row -/

/-- The square's columns are the axis a row reduction drops. -/
theorem redRow : S8192x8192.Reduces [1] S8192 := by decide

/-- Row `i` with column `k` inserted. -/
theorem liftRow_eq (i k : Fin 8192) : redRow.lift (ix1 i) k = ix2 i k := by
  funext a
  match a with
  | ⟨0, _⟩ => exact Fin.ext rfl
  | ⟨1, _⟩ => exact Fin.ext rfl

/-- The maximum of a row of reals, as the program takes it, is a real. -/
theorem rowMax_apply (Sc : FVec Ideal S8192x8192 .f32) (x : Fin 8192 → ℝ) (i : Fin 8192)
    (hSc : ∀ j, Sc (ix2 i j) = ((x j : ℝ) : EReal)) : ∃ c : ℝ, rowMax Sc (ix1 i) = ((c : ℝ) : EReal) := by
  unfold rowMax
  rw [maximumf_apply, Host.reduce_eq_fold_single FloatOps.maximumf Sc _ reducesTo_S8192x8192_S8192_d1 redRow h_S_ (ix1 i),
    broadcastInDim_scalar_apply, constant_apply, constant_apply, neg_inf]
  have hrow : (Sc ∘ redRow.lift (ix1 i)) = fun k : Fin 8192 => ((x k : ℝ) : EReal) :=
    funext fun (k : Fin 8192) => (congrArg Sc (liftRow_eq i k)).trans (hSc k)
  rw [hrow]
  obtain ⟨c, hc⟩ := fold_max_coe (n := 8192) (by norm_num) x
  refine ⟨c, ?_⟩
  rw [max_bot_left]
  exact hc

/-- The exponentials of a row of reals less the row's maximum are real exponentials of the reals less one real. -/
theorem expo_apply (Sc : FVec Ideal S8192x8192 .f32) (x : Fin 8192 → ℝ) (i : Fin 8192)
    (hSc : ∀ j, Sc (ix2 i j) = ((x j : ℝ) : EReal)) :
    ∃ c : ℝ, ∀ j, expo Sc (ix2 i j) = ((Real.exp (x j - c) : ℝ) : EReal) := by
  obtain ⟨c, hc⟩ := rowMax_apply Sc x i hSc
  refine ⟨c, fun j => ?_⟩
  unfold expo
  rw [hostExp_apply, subf_apply, bcastVecRow_apply, hc, hSc, ← EReal.coe_sub, exp_coe]

/-- A row of reals with a nonzero sum, each entry over the sum. -/
theorem soft_apply (E : FVec Ideal S8192x8192 .f32) (e : Fin 8192 → ℝ) (i : Fin 8192)
    (hE : ∀ j, E (ix2 i j) = ((e j : ℝ) : EReal)) (hsum : (∑ k : Fin 8192, e k) ≠ 0) (j : Fin 8192) :
    soft E (ix2 i j) = ((e j / ∑ k : Fin 8192, e k : ℝ) : EReal) := by
  unfold soft
  rw [hostDivf_apply, bcastVecRow_apply, hostReduceAdd_apply, Ideal.hostReduceAdd_single _ redRow, constant_apply,
    Ideal.ofBits_zero_f32, zero_add]
  have hrow : (∑ k : Fin (S8192x8192.size 1), E (redRow.lift (ix1 i) k)) = ∑ k : Fin 8192, ((e k : ℝ) : EReal) :=
    Finset.sum_congr rfl fun (k : Fin 8192) _ => (congrArg E (liftRow_eq i k)).trans (hE k)
  rw [hrow, hE, coe_sum, div_coe _ _ hsum]

/-- The weights of row `i`: for some real shift, the shifted exponentials of the scores over their sum. -/
theorem weights_apply (A : IVec S8192x8192 32) (s r : FVec Ideal S8192x1 .f32)
    (hs : ∀ k, s k ≠ ⊤ ∧ s k ≠ ⊥) (hr : ∀ k, r k ≠ ⊤ ∧ r k ≠ ⊥) (hA : ∀ k, A k = 0#32 ∨ A k = 1#32) (i : Fin 8192) :
    ∃ c : ℝ, ∀ j, weights A s r (ix2 i j)
      = ((Real.exp (scores A s r i j - c) / ∑ k : Fin 8192, Real.exp (scores A s r i k - c) : ℝ) : EReal) := by
  obtain ⟨c, hc⟩ := expo_apply (masked A (lrelu (pre A s r))) (scores A s r i) i (score_apply A s r hs hr hA i)
  exact ⟨c, fun j => soft_apply _ (fun k => Real.exp (scores A s r i k - c)) i hc (sum_exp_pos _ c).ne' j⟩

/-! ### The product, the reshape, the sum over the heads -/

/-- The product of the weights and the features at an entry: the sum over the nodes. -/
theorem dotW_apply (Wt : FVec Ideal S8192x8192 .f32) (H : FVec Ideal S8192x256 .f32) (i : Fin 8192) (c : Fin 256) :
    Host.dotGeneral dot_S8192x8192_S8192x256_S8192x256_1_0_0_1_n_n none Wt H (ix2 i c)
      = ∑ j : Fin 8192, Wt (ix2 i j) * H (ix2 j c) :=
  StackMember.dotGeneral_plain_apply (m := 8192) (n := 256) (k := 8192) none Wt H i c

/-- The 256 columns as four heads of 64: head `h`, position `d` is column `64 h + d`. -/
theorem heads_apply (P : FVec Ideal S8192x256 .f32) (i : Fin 8192) (h : Fin 4) (d : Fin 64) :
    shapeCast S8192x4x64 P shapeCasts_S8192x256_S8192x4x64 (ix3 i h d) = P (ix2 i (headCol h d)) :=
  shapeCast_apply P _ (ix3 i h d) (ix2 i (headCol h d)) (by
    rw [Shape.rowMajor_val_two, Shape.rowMajor_val_three]
    show i.val * 256 + (64 * h.val + d.val) = (i.val * 4 + h.val) * 64 + d.val
    omega)

/-- The heads are the axis the last reduction drops. -/
theorem redHead : S8192x4x64.Reduces [1] S8192x64 := by decide

/-- Entry `(i, d)` with head `h` inserted. -/
theorem liftHead_eq (i : Fin 8192) (d : Fin 64) (h : Fin 4) : redHead.lift (ix2 i d) h = ix3 i h d := by
  funext a
  match a with
  | ⟨0, _⟩ => exact Fin.ext rfl
  | ⟨1, _⟩ => exact Fin.ext rfl
  | ⟨2, _⟩ => exact Fin.ext rfl

/-- Everything after the three matrix products, at an entry: the statement's aggregate of the row's scores. -/
theorem tail_apply (A : IVec S8192x8192 32) (H : FVec Ideal S8192x256 .f32) (s r : FVec Ideal S8192x1 .f32)
    (hH : ∀ k, H k ≠ ⊤ ∧ H k ≠ ⊥) (hs : ∀ k, s k ≠ ⊤ ∧ s k ≠ ⊥) (hr : ∀ k, r k ≠ ⊤ ∧ r k ≠ ⊥)
    (hA : ∀ k, A k = 0#32 ∨ A k = 1#32) (i : Fin 8192) (d : Fin 64) :
    tail A H s r (ix2 i d) = out A H s r i d := by
  obtain ⟨c, hw⟩ := weights_apply A s r hs hr hA i
  unfold tail out
  rw [hostReduceAdd_apply, Ideal.hostReduceAdd_single _ redHead, constant_apply, Ideal.ofBits_zero_f32, zero_add,
    ← agg_of_ref (scores A s r i) (feat H) d c, ← coe_sum]
  refine Finset.sum_congr rfl fun (h : Fin 4) _ => ?_
  rw [show redHead.lift (ix2 i d) h = ix3 i h d from liftHead_eq i d h, heads_apply, dotW_apply, ← coe_sum]
  refine Finset.sum_congr rfl fun j _ => ?_
  rw [hw j, EReal.coe_mul]
  unfold feat
  rw [EReal.coe_toReal (hH _).1 (hH _).2]

/-- With finite features and logits and a 0/1 adjacency, everything after the three matrix products is the
    attention layer of the statement. -/
theorem tail_eq (A : IVec S8192x8192 32) (H : FVec Ideal S8192x256 .f32) (s r : FVec Ideal S8192x1 .f32)
    (hH : ∀ k, H k ≠ ⊤ ∧ H k ≠ ⊥) (hs : ∀ k, s k ≠ ⊤ ∧ s k ≠ ⊥) (hr : ∀ k, r k ≠ ⊤ ∧ r k ≠ ⊥)
    (hA : ∀ k, A k = 0#32 ∨ A k = 1#32) : tail A H s r = G A H s r := by
  funext o
  obtain ⟨i, d, rfl⟩ : ∃ (i : Fin 8192) (d : Fin 64), o = ix2 i d := ⟨o 0, o 1, eq_ix2 o⟩
  rw [G_ix2]
  exact tail_apply A H s r hH hs hr hA i d

/-! ### The result -/

/-- The program's feature matrix is the shared one: the same product and bias, the records' evidence aside. -/
theorem featH_eq (wfH : DotDims.WF Cert.HostPart.SX Cert.HostPart.SW Cert.HostPart.SX [1] [0] [0] [1] [] [])
    (ht : Cert.HostPart.SW.Transposes [1, 0] Cert.HostPart.SW)
    (hb1 : Cert.HostPart.SB.BroadcastsInDim Cert.HostPart.SB1 (![1] : Fin 1 → Fin Cert.HostPart.SB1.rank))
    (hb2 : Cert.HostPart.SB1.BroadcastsInDim Cert.HostPart.SX (![0, 1] : Fin 2 → Fin Cert.HostPart.SX.rank))
    (X : FVec Ideal S8192x256 .f32) (W : FVec Ideal S256x256 .f32) (b : FVec Ideal S256 .f32) :
    featH X W b = Cert.HostPart.Hin wfH ht hb1 hb2 X W b := rfl

/-- The program's logit column is the shared one. -/
theorem logit_eq (wfV : DotDims.WF Cert.HostPart.SX Cert.HostPart.SC Cert.HostPart.SV [1] [0] [0] [1] [] [])
    (H : FVec Ideal S8192x256 .f32) (a : FVec Ideal S256x1 .f32) : logit H a = Cert.HostPart.lin wfV H a := rfl

/-- With the projected features and the two logit columns finite and the adjacency 0 or 1, the reference's result
    is the attention layer of the statement on those three arrays. -/
theorem refOut_eq (wfH : DotDims.WF Cert.HostPart.SX Cert.HostPart.SW Cert.HostPart.SX [1] [0] [0] [1] [] [])
    (ht : Cert.HostPart.SW.Transposes [1, 0] Cert.HostPart.SW)
    (hb1 : Cert.HostPart.SB.BroadcastsInDim Cert.HostPart.SB1 (![1] : Fin 1 → Fin Cert.HostPart.SB1.rank))
    (hb2 : Cert.HostPart.SB1.BroadcastsInDim Cert.HostPart.SX (![0, 1] : Fin 2 → Fin Cert.HostPart.SX.rank))
    (wfV : DotDims.WF Cert.HostPart.SX Cert.HostPart.SC Cert.HostPart.SV [1] [0] [0] [1] [] [])
    (X : FVec Ideal S8192x256 .f32) (A : IVec S8192x8192 32) (W : FVec Ideal S256x256 .f32)
    (b : FVec Ideal S256 .f32) (a_s a_r : FVec Ideal S256x1 .f32)
    (hH : ∀ i, Cert.HostPart.Hin wfH ht hb1 hb2 X W b i ≠ ⊤ ∧ Cert.HostPart.Hin wfH ht hb1 hb2 X W b i ≠ ⊥)
    (hs : ∀ i, Cert.HostPart.lin wfV (Cert.HostPart.Hin wfH ht hb1 hb2 X W b) a_s i ≠ ⊤
      ∧ Cert.HostPart.lin wfV (Cert.HostPart.Hin wfH ht hb1 hb2 X W b) a_s i ≠ ⊥)
    (hr : ∀ i, Cert.HostPart.lin wfV (Cert.HostPart.Hin wfH ht hb1 hb2 X W b) a_r i ≠ ⊤
      ∧ Cert.HostPart.lin wfV (Cert.HostPart.Hin wfH ht hb1 hb2 X W b) a_r i ≠ ⊥)
    (hA : ∀ i, A i = 0#32 ∨ A i = 1#32) :
    refOut X A W b a_s a_r
      = Cert.Attn.G A (Cert.HostPart.Hin wfH ht hb1 hb2 X W b)
          (Cert.HostPart.lin wfV (Cert.HostPart.Hin wfH ht hb1 hb2 X W b) a_s)
          (Cert.HostPart.lin wfV (Cert.HostPart.Hin wfH ht hb1 hb2 X W b) a_r) := by
  unfold refOut
  rw [featH_eq wfH ht hb1 hb2, logit_eq wfV, logit_eq wfV]
  exact tail_eq A _ _ _ hH hs hr hA

end Cert.ReferenceIdeal.RefValue

end
-- ==== Proof.lean ====
/-
  One graph-attention layer over 8192 nodes: the kernel against its jnp reference, as extended reals.

  Both programs project the inputs on the host in the same way — features `H = X · Wᵀ + b`, logit columns
  `s = H · a_s`, `r = H · a_r` — and then compute, for every node `i`, the softmax over ALL nodes `j` of the score
  `leaky (s i + r j)` on an edge (`A i j = 1`) and a finite fill `-9e15` off it, the softmax-weighted average of
  the rows of `H`, and the sum of its four heads.  The reference does this on whole 8192 × 8192 arrays, subtracting
  each row's maximum before the exponential.  The kernel walks the adjacency in 1024 × 512 blocks and keeps, per row,
  a running maximum, a running normaliser and running weighted sums, rescaling them whenever the maximum grows (an
  online softmax); at the last column block it divides.  Over the reals a softmax does not see a common shift of a
  row's scores, so both ends are the same quotient of sums (`Cert.Attn.G`); every intermediate IS a real number
  because the float inputs are finite and the adjacency is 0/1 — on a 0/1 adjacency the reference's
  `A·s + A·rᵀ` is the kernel's `s + rᵀ` on the edges and is masked off elsewhere.

  The three frames are the generated frame runs (the reference's: its run with the result dropped); the ideal pass
  rewrote nothing, so `preserves` is `True`.
-/
import proofs.«124421_j80685255622923_2_alg».proof.Defs
import proofs.«124421_j80685255622923_2_alg».proof.Proof.Gen.Kernel
import proofs.«124421_j80685255622923_2_alg».proof.Proof.Gen.Kernel.Frame
import proofs.«124421_j80685255622923_2_alg».proof.Proof.Gen.KernelIdeal
import proofs.«124421_j80685255622923_2_alg».proof.Proof.Gen.KernelIdeal.Frame
import proofs.«124421_j80685255622923_2_alg».proof.Proof.Gen.KernelIdeal.Value
import proofs.«124421_j80685255622923_2_alg».proof.Proof.Gen.ReferenceIdeal
import proofs.«124421_j80685255622923_2_alg».proof.Proof.Gen.Pre_finite_inputs
import proofs.«124421_j80685255622923_2_alg».proof.Proof.KerRun
import proofs.«124421_j80685255622923_2_alg».proof.Proof.KerHyps
import proofs.«124421_j80685255622923_2_alg».proof.Proof.RefValue
import Idealize.ShloMosaic.Adequacy
import Idealize.ShloMosaic.Init

noncomputable section

namespace Cert.Proof

open Idealize.ShloMosaic Idealize.SL.Sem

/-- The kernel's frame at the word level: the generated frame run. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: the generated frame run. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.RefValue.run m ρ)

/-- Both programs end with the layer's output `Cert.Attn.G` of the adjacency and the host-projected arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.G (Cert.KernelIdeal.KerValue.adj m c) (Cert.KernelIdeal.KerValue.Hc m c)
      (Cert.KernelIdeal.KerValue.sc m c) (Cert.KernelIdeal.KerValue.rc m c),
    Cert.KernelIdeal.KerValue.run m ρ hpre, ?_⟩
  refine (θ_run _ _ _).mono (fun _ h c => ⟨(h c).1.trans ?_, (h c).2⟩) (Cert.ReferenceIdeal.RefValue.run m' ρ')
  obtain ⟨hA, hs, hr, hH⟩ := Cert.KernelIdeal.KerValue.hyps_of_pre m hpre c
  rw [(hagree c).1, (hagree c).2.1, (hagree c).2.2.1, (hagree c).2.2.2.1, (hagree c).2.2.2.2.1, (hagree c).2.2.2.2.2]
  exact Cert.ReferenceIdeal.RefValue.refOut_eq _ _ _ _ _ _ _ _ _ _ _ hH hs hr hA

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
